-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x64 .f32) (main_arg8 : FVec F S64 .f32) (main_arg9 : FVec F S64x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S4x128x128 .f32) (main_arg4 : FVec F S4x128 .f32) (main_arg5 : FVec F S128x128 .f32) (main_arg6 : FVec F S128 .f32) (main_arg7 : FVec F S128x64 .f32) (main_arg8 : FVec F S64 .f32) (main_arg9 : FVec F S64x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128x128 : Shape := ⟨3, ![1, 128, 128]⟩
abbrev S1x128 : Shape := ⟨2, ![1, 128]⟩
abbrev S5000x128 : Shape := ⟨2, ![5000, 128]⟩
abbrev S800000x128 : Shape := ⟨2, ![800000, 128]⟩
abbrev S50000x1 : Shape := ⟨2, ![50000, 1]⟩
abbrev S5000x1 : Shape := ⟨2, ![5000, 1]⟩
abbrev S512x128 : Shape := ⟨2, ![512, 128]⟩
abbrev S1x64 : Shape := ⟨2, ![1, 64]⟩
abbrev S1x10 : Shape := ⟨2, ![1, 10]⟩
abbrev S512x10 : Shape := ⟨2, ![512, 10]⟩
abbrev S512x64 : Shape := ⟨2, ![512, 64]⟩

abbrev nBuf : Space → Nat
  | .hbm => 148
  | .vmem => 64
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S128x128, .f32⟩
  | 6 => ⟨S128, .f32⟩
  | 7 => ⟨S128x64, .f32⟩
  | 8 => ⟨S64, .f32⟩
  | 9 => ⟨S64x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S800000x1, .f32⟩
  | 45 => ⟨S_, .f32⟩
  | 46 => ⟨S50000, .f32⟩
  | 47 => ⟨S50000, .f32⟩
  | 48 => ⟨S1x128x128, .f32⟩
  | 49 => ⟨S128x128, .f32⟩
  | 50 => ⟨S1x128, .f32⟩
  | 51 => ⟨S128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x128, .f32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S1x128, .f32⟩
  | 69 => ⟨S50000x1, .f32⟩
  | 70 => ⟨S50000x128, .f32⟩
  | 71 => ⟨S1x128x128, .f32⟩
  | 72 => ⟨S128x128, .f32⟩
  | 73 => ⟨S1x128, .f32⟩
  | 74 => ⟨S128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S1x128, .f32⟩
  | 92 => ⟨S50000x1, .f32⟩
  | 93 => ⟨S50000x128, .f32⟩
  | 94 => ⟨S1x128x128, .f32⟩
  | 95 => ⟨S128x128, .f32⟩
  | 96 => ⟨S1x128, .f32⟩
  | 97 => ⟨S128, .f32⟩
  | 98 => ⟨S50000x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S1x128, .f32⟩
  | 115 => ⟨S50000x1, .f32⟩
  | 116 => ⟨S50000x128, .f32⟩
  | 117 => ⟨S1x128x128, .f32⟩
  | 118 => ⟨S128x128, .f32⟩
  | 119 => ⟨S1x128, .f32⟩
  | 120 => ⟨S128, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x128, .f32⟩
  | 3 => ⟨S800000x128, .f32⟩
  | 4 => ⟨S800000x128, .f32⟩
  | 5 => ⟨S_, .f32⟩
  | 6 => ⟨S50000x128, .f32⟩
  | 7 => ⟨S800000x1, .i32⟩
  | 8 => ⟨S50000x128, .f32⟩
  | 9 => ⟨S1x128, .f32⟩
  | 10 => ⟨S50000x1, .f32⟩
  | 11 => ⟨S50000x128, .f32⟩
  | 12 => ⟨S_, .f32⟩
  | 13 => ⟨S512x128, .f32⟩
  | 14 => ⟨S50000x1, .i32⟩
  | 15 => ⟨S512x128, .f32⟩
  | 16 => ⟨S1x128, .f32⟩
  | 17 => ⟨S1x64, .f32⟩
  | 18 => ⟨S1x10, .f32⟩
  | 19 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S512x128, .f32⟩
  | .local _ .vmem, ⟨57, _⟩ => ⟨S128x128, .f32⟩
  | .local _ .vmem, ⟨58, _⟩ => ⟨S1x128, .f32⟩
  | .local _ .vmem, ⟨59, _⟩ => ⟨S128x64, .f32⟩
  | .local _ .vmem, ⟨60, _⟩ => ⟨S1x64, .f32⟩
  | .local _ .vmem, ⟨61, _⟩ => ⟨S64x10, .f32⟩
  | .local _ .vmem, ⟨62, _⟩ => ⟨S1x10, .f32⟩
  | .local _ .vmem, ⟨63, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_12 : Ref sig .tc := ⟨.hbm, 99, rfl⟩
abbrev main_v74 : Ref sig .tc := ⟨.hbm, 100, rfl⟩
abbrev main_v75 : Ref sig .tc := ⟨.hbm, 101, rfl⟩
abbrev main_c_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_15 : Ref sig .tc := ⟨.hbm, 122, rfl⟩
abbrev main_v94 : Ref sig .tc := ⟨.hbm, 123, rfl⟩
abbrev main_v95 : Ref sig .tc := ⟨.hbm, 124, rfl⟩
abbrev main_c_16 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_17 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_18 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg1_0 : Ref sig .tc := ⟨.vmem, 57, rfl⟩
abbrev cc8_stg2_0 : Ref sig .tc := ⟨.vmem, 58, rfl⟩
abbrev cc8_stg3_0 : Ref sig .tc := ⟨.vmem, 59, rfl⟩
abbrev cc8_stg4_0 : Ref sig .tc := ⟨.vmem, 60, rfl⟩
abbrev cc8_stg5_0 : Ref sig .tc := ⟨.vmem, 61, rfl⟩
abbrev cc8_stg6_0 : Ref sig .tc := ⟨.vmem, 62, rfl⟩
abbrev cc8_stg7_0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55
abbrev cc8_sem0_0 : DmaSem sig := 56
abbrev cc8_sem1_0 : DmaSem sig := 57
abbrev cc8_sem2_0 : DmaSem sig := 58
abbrev cc8_sem3_0 : DmaSem sig := 59
abbrev cc8_sem4_0 : DmaSem sig := 60
abbrev cc8_sem5_0 : DmaSem sig := 61
abbrev cc8_sem6_0 : DmaSem sig := 62
abbrev cc8_sem7_0 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S512x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x10 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x10 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S512x10 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S50000_S50000x1 : S50000.ShapeCasts S50000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  shapeCasts_S64_S1x64 : S64.ShapeCasts S1x64
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S512x128.size a ≤ S512x128.size a
  hwx8_0 : ∀ i : grid8.Coords, EltTy.bits .f32 = 32 ∨ (Rect.block (s := S512x128) S512x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x64.size a ≤ S128x64.size a
  hwx8_3 : ∀ i : grid8.Coords, EltTy.bits .f32 = 32 ∨ (Rect.block (s := S128x64) S128x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x10.size a ≤ S64x10.size a
  hwx8_5 : ∀ i : grid8.Coords, EltTy.bits .f32 = 32 ∨ (Rect.block (s := S64x10) S64x10.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x10.size a ≤ S1x10.size a
  hwx8_6 : ∀ i : grid8.Coords, EltTy.bits .f32 = 32 ∨ (Rect.block (s := S1x10) S1x10.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S512x10.size a ≤ S512x10.size a
  hwx8_7 : ∀ i : grid8.Coords, EltTy.bits .f32 = 32 ∨ (Rect.block (s := S512x10) S512x10.size (cc8_transform_7 i) (hinb8_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v85) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v87) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v88) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v105) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v93) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v107) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v106) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v108) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v111) S512x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg5) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v112) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg7) S128x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v113) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg9) S64x10.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v114) S1x10.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v115) S512x10.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S1x128 : Shape := ⟨2, ![1, 128]⟩
abbrev S800000x128 : Shape := ⟨2, ![800000, 128]⟩
abbrev S512x128 : Shape := ⟨2, ![512, 128]⟩
abbrev S512x64 : Shape := ⟨2, ![512, 64]⟩
abbrev S1x64 : Shape := ⟨2, ![1, 64]⟩
abbrev S512x10 : Shape := ⟨2, ![512, 10]⟩
abbrev S1x10 : Shape := ⟨2, ![1, 10]⟩

abbrev nBuf : Space → Nat
  | .hbm => 187
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S128x128, .f32⟩
  | 6 => ⟨S128, .f32⟩
  | 7 => ⟨S128x64, .f32⟩
  | 8 => ⟨S64, .f32⟩
  | 9 => ⟨S64x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S800000x1, .f32⟩
  | 45 => ⟨S_, .f32⟩
  | 46 => ⟨S50000, .f32⟩
  | 47 => ⟨S50000, .f32⟩
  | 48 => ⟨S50000x1, .f32⟩
  | 49 => ⟨S1x128x128, .f32⟩
  | 50 => ⟨S128x128, .f32⟩
  | 51 => ⟨S1x128, .f32⟩
  | 52 => ⟨S128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S1x128x128, .f32⟩
  | 79 => ⟨S128x128, .f32⟩
  | 80 => ⟨S1x128, .f32⟩
  | 81 => ⟨S128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S800000x128, .f32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S50000x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S1x128x128, .f32⟩
  | 108 => ⟨S128x128, .f32⟩
  | 109 => ⟨S1x128, .f32⟩
  | 110 => ⟨S128, .f32⟩
  | 111 => ⟨S50000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S800000x128, .f32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S1x128x128, .f32⟩
  | 9 => ⟨S128x128, .f32⟩
  | 10 => ⟨S1x128, .f32⟩
  | 11 => ⟨S128, .f32⟩
  | 12 => ⟨S50000x128, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x128, .f32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S50000x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S_, .f32⟩
  | 38 => ⟨S512x128, .f32⟩
  | 39 => ⟨S50000x1, .i32⟩
  | 40 => ⟨S512x128, .f32⟩
  | 41 => ⟨S512x128, .f32⟩
  | 42 => ⟨S1x128, .f32⟩
  | 43 => ⟨S512x128, .f32⟩
  | 44 => ⟨S512x128, .f32⟩
  | 45 => ⟨S_, .f32⟩
  | 46 => ⟨S512x128, .f32⟩
  | 47 => ⟨S512x128, .f32⟩
  | 48 => ⟨S512x64, .f32⟩
  | 49 => ⟨S1x64, .f32⟩
  | 50 => ⟨S512x64, .f32⟩
  | 51 => ⟨S512x64, .f32⟩
  | 52 => ⟨S_, .f32⟩
  | 53 => ⟨S512x64, .f32⟩
  | 54 => ⟨S512x64, .f32⟩
  | 55 => ⟨S512x10, .f32⟩
  | 56 => ⟨S1x10, .f32⟩
  | 57 => ⟨S512x10, .f32⟩
  | 58 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_c_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call1_cst : Ref sig .tc := ⟨.hbm, 104, rfl⟩
abbrev main_call1_v0 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_12 : Ref sig .tc := ⟨.hbm, 112, rfl⟩
abbrev main_v83 : Ref sig .tc := ⟨.hbm, 113, rfl⟩
abbrev main_v84 : Ref sig .tc := ⟨.hbm, 114, rfl⟩
abbrev main_c_13 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_14 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_call2_cst : Ref sig .tc := ⟨.hbm, 133, rfl⟩
abbrev main_call2_v0 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_c_15 : Ref sig .tc := ⟨.hbm, 141, rfl⟩
abbrev main_v107 : Ref sig .tc := ⟨.hbm, 142, rfl⟩
abbrev main_v108 : Ref sig .tc := ⟨.hbm, 143, rfl⟩
abbrev main_c_16 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_17 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_call3_cst : Ref sig .tc := ⟨.hbm, 162, rfl⟩
abbrev main_call3_v0 : Ref sig .tc := ⟨.hbm, 163, rfl⟩
abbrev main_v125 : Ref sig .tc := ⟨.hbm, 164, rfl⟩
abbrev main_cst_18 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_call4_cst : Ref sig .tc := ⟨.hbm, 173, rfl⟩
abbrev main_call4_v0 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_call5_cst : Ref sig .tc := ⟨.hbm, 180, rfl⟩
abbrev main_call5_v0 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S1x128_S512x128_0_1 : S1x128.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  dot_S512x64_S64x10_S512x10_1_0_0_1_n_n_wf : DotDims.WF S512x64 S64x10 S512x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KernelRun.lean ====
/-
  The idealized kernel's run with its result named. Every weakly fair execution of @main — nine pipelined regions
  among stretches of host operations — terminates without a fault; the result buffer ends holding what the fold of
  boundary contents `W18` has at it (the last region's output array, since no host operation follows that region),
  and the argument arrays end as launched.
-/
import proofs.«132292_j27307402068686_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run : θ_run defs (onTc (τ := τ) (main (F := F))) ⟨m, fun _ => 0, ρ⟩ (fun r => ∀ c : Dev nD,
      r.2.mem ((c.tc : Thread nD τ).loc main_v115) = W18 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v115 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c)⟩)

end Cert.KernelIdeal.RunValue

end
-- ==== Proof.Spec.lean ====
/-
  The three whole-array functions that the pipelined regions compute, written with the reference program's own
  operations: a row-tiled matrix product is the whole product `h · W`; the epilogue of a graph-convolution layer is
  `max (agg + h₂ · sₙ + b, 0)` with the per-node scale a column and the bias a row, each broadcast to the full array;
  the head is three affine maps with `max (·, 0)` after the first two.
-/
import proofs.«132292_j27307402068686_1_alg».proof.ReferenceIdeal
import proofs.«132292_j27307402068686_1_alg».proof.Proof.Gen.ReferenceIdeal.Read

noncomputable section

namespace Cert.Spec

open Idealize.ShloMosaic Idealize.ShloMosaic.TcCoe Cert.ReferenceIdeal Cert.ReferenceIdeal.Facts₀

variable {F : FTy → Type} [FloatOps F]

/-- The whole matrix product `h · W` of a layer's linear transform. -/
def linRef (h : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none h W

/-- A layer's epilogue: `max (agg + h₂ · sₙ + b, 0)`, the scale `sₙ` a column [N,1], the bias `b` a row [1,D]. -/
def combineRef (agg h2 : (⟨S50000x128, .f32⟩ : BufTy).Contents (Elt F)) (sn2 : (⟨S50000x1, .f32⟩ : BufTy).Contents (Elt F))
    (b2 : (⟨S1x128, .f32⟩ : BufTy).Contents (Elt F)) : (⟨S50000x128, .f32⟩ : BufTy).Contents (Elt F) :=
  maximumf (addf (addf agg (mulf h2 (broadcastInDim S50000x128 ![0, 1] bcast_S50000x1_S50000x128_0_1 sn2)))
    (broadcastInDim S50000x128 ![0, 1] bcast_S1x128_S50000x128_0_1 b2)) (Cert.ReferenceIdeal.Read.val_main_call0_v0 (F := F))

/-- The head: `max (max (g·W₁ + b₁, 0)·W₂ + b₂, 0)·W₃ + b₃`, each bias a row broadcast over the 512 graphs. -/
def mlpRef (g : (⟨S512x128, .f32⟩ : BufTy).Contents (Elt F)) (w1 : (⟨S128x128, .f32⟩ : BufTy).Contents (Elt F))
    (b1 : (⟨S1x128, .f32⟩ : BufTy).Contents (Elt F)) (w2 : (⟨S128x64, .f32⟩ : BufTy).Contents (Elt F))
    (b2 : (⟨S1x64, .f32⟩ : BufTy).Contents (Elt F)) (w3 : (⟨S64x10, .f32⟩ : BufTy).Contents (Elt F))
    (b3 : (⟨S1x10, .f32⟩ : BufTy).Contents (Elt F)) : (⟨S512x10, .f32⟩ : BufTy).Contents (Elt F) :=
  addf (Host.dotGeneral dot_S512x64_S64x10_S512x10_1_0_0_1_n_n none
    (maximumf (addf (Host.dotGeneral dot_S512x128_S128x64_S512x64_1_0_0_1_n_n none
      (maximumf (addf (Host.dotGeneral dot_S512x128_S128x128_S512x128_1_0_0_1_n_n none g w1)
          (broadcastInDim S512x128 ![0, 1] bcast_S1x128_S512x128_0_1 b1))
        (Cert.ReferenceIdeal.Read.val_main_call4_v0 (F := F))) w2)
        (broadcastInDim S512x64 ![0, 1] bcast_S1x64_S512x64_0_1 b2))
      (Cert.ReferenceIdeal.Read.val_main_call5_v0 (F := F))) w3)
    (broadcastInDim S512x10 ![0, 1] bcast_S1x10_S512x10_0_1 b3)

end Cert.Spec

end
-- ==== Proof.LibReshape.lean ====
/-
  Two spellings of one relabelling. A vector of length n viewed as a row [1,n] or as a column [n,1] holds, at every
  index, the vector's entry at the one coordinate that is not on the unit axis — whether the view is written as a
  reshape or as a broadcast into the named axis.
-/
import Idealize.ShloMosaic.Lib.Pipeline.Value

noncomputable section

namespace Cert.Glue

open Idealize.ShloMosaic

variable {α : Type}

/-- A length-n vector reshaped to the row [1,n] is its broadcast along axis 1. -/
theorem row_eq (n : Nat) (v : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v h = broadcastInDim ⟨2, ![1, n]⟩ ![1] hb v := by
  funext j
  have hj0 : (j 0).val < 1 := (j 0).isLt
  have hj1 : (j 1).val < n := (j 1).isLt
  have h0 : (j 0).val = 0 := by omega
  let k : (⟨1, ![n]⟩ : Shape).Idx := fun a => match a with | ⟨0, _⟩ => ⟨(j 1).val, hj1⟩
  have hk : ((⟨1, ![n]⟩ : Shape).rowMajor k).val = ((⟨2, ![1, n]⟩ : Shape).rowMajor j).val := by
    rw [Shape.rowMajor_val_one, Shape.rowMajor_val_two]
    show (j 1).val = (j 0).val * n + (j 1).val
    rw [h0, Nat.zero_mul, Nat.zero_add]
  rw [shapeCast_apply v h j k hk]
  refine (broadcastInDim_apply ![1] hb v j k (fun a => ?_)).symm
  match a with
  | ⟨0, _⟩ =>
    show (j 1).val = if n = 1 then 0 else (j 1).val
    by_cases hn : n = 1
    · rw [if_pos hn]; omega
    · rw [if_neg hn]

/-- A length-n vector reshaped to the column [n,1] is its broadcast along axis 0. -/
theorem col_eq (n : Nat) (v : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ v h = broadcastInDim ⟨2, ![n, 1]⟩ ![0] hb v := by
  funext j
  have hj0 : (j 0).val < n := (j 0).isLt
  have hj1 : (j 1).val < 1 := (j 1).isLt
  have h1 : (j 1).val = 0 := by omega
  let k : (⟨1, ![n]⟩ : Shape).Idx := fun a => match a with | ⟨0, _⟩ => ⟨(j 0).val, hj0⟩
  have hk : ((⟨1, ![n]⟩ : Shape).rowMajor k).val = ((⟨2, ![n, 1]⟩ : Shape).rowMajor j).val := by
    rw [Shape.rowMajor_val_one, Shape.rowMajor_val_two]
    show (j 0).val = (j 0).val * 1 + (j 1).val
    rw [h1, Nat.mul_one, Nat.add_zero]
  rw [shapeCast_apply v h j k hk]
  refine (broadcastInDim_apply ![0] hb v j k (fun a => ?_)).symm
  match a with
  | ⟨0, _⟩ =>
    show (j 0).val = if n = 1 then 0 else (j 0).val
    by_cases hn : n = 1
    · rw [if_pos hn]; omega
    · rw [if_neg hn]

end Cert.Glue

end
-- ==== Proof.Mlp.lean ====
/-
  The head of the network (three affine maps with `max (·, 0)` after the first two) as the last pipelined region
  computes it. The region's grid has one point and each of its windows is a whole array, so the array it leaves is the
  body's arithmetic applied to the arrays it finds. That arithmetic is, operation by operation, the reference's:
  on the extended reals a change of float format is the identity, a matrix product into a zero accumulator and the
  host's product are the same sum over the contracted index, a row broadcast along the trailing axes reads the same
  operand element as the host's broadcast, and both zero arrays hold the same word at every index.
-/
import proofs.«132292_j27307402068686_1_alg».proof.Proof.Gen.KernelIdeal.Frame
import proofs.«132292_j27307402068686_1_alg».proof.Proof.Gen.ReferenceIdeal.Read
import proofs.«132292_j27307402068686_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mlp

open Idealize.ShloMosaic Idealize.ShloMosaic.TcCoe Idealize.SL.Sem Cert.KernelIdeal Cert.KernelIdeal.Gen
open Cert.Spec

/-! ## The head's arithmetic: the body's term is the reference-form function of its operands -/

/-- A matrix product into the zero accumulator, of operands passed through a change of float format (the identity on
    the extended reals), is the host's product of the operands: both are the same sum over the contracted index. -/
theorem matmul_zero_eq_dotGeneral {sl sr so : Shape} (d d' : DotDims sl sr so) (hd : d = d')
    (h16 : FTy.bits .bf16 < FTy.bits .f32) (a : FVec Ideal sl .f32) (b : FVec Ideal sr .f32) :
    matmul (F := Ideal) d none (truncf .bf16 a h16) (truncf .bf16 b h16) (constant so .f32 0x00000000#32)
      = Host.dotGeneral (F := Ideal) d' none a b := by
  subst hd
  funext j
  refine (Ideal.matmul_constant_zero_apply d none _ _ j).trans ?_
  refine Eq.trans ?_ (Ideal.dotGeneral_apply d none .single a b j).symm
  exact Finset.sum_congr rfl fun k _ => rfl

/-- A row broadcast along the trailing axes is the host's broadcast whose operand axes land on the result's trailing
    axes: both read the operand at the result's coordinate, `0` on the operand's unit axes. -/
theorem broadcastTo_eq_broadcastInDim {s t : Shape} {α : Type} (x : s.Idx → α) (h : s.Broadcasts t)
    (dims : Fin s.rank → Fin t.rank) (h' : s.BroadcastsInDim t dims)
    (hd : ∀ a : Fin s.rank, (dims a).val = a.val + (t.rank - s.rank)) :
    broadcastTo t x h = broadcastInDim t dims h' x := by
  funext j
  unfold broadcastTo broadcastInDim
  refine congrArg x (funext fun a => ?_)
  by_cases h1 : s.size a = 1
  · rw [dif_pos h1, dif_pos h1]
  · rw [dif_neg h1, dif_neg h1]
    apply Fin.ext
    have e : (⟨a.val + (t.rank - s.rank), by have := h.1; have := a.isLt; omega⟩ : Fin t.rank) = dims a :=
      Fin.ext (hd a).symm
    exact congrArg (fun z => (j z).val) e

/-- The kernel's zero splat is the reference's zero array: both hold the word `0x00000000` at every index. -/
theorem zero128 : broadcast S512x128 (Scalar.ofBits (F := Ideal) .f32 0x00000000#32) = Cert.ReferenceIdeal.Read.val_main_call4_v0 (F := Ideal) :=
  funext fun i => ((Cert.ReferenceIdeal.Read.val_main_call4_v0_apply i).trans (Cert.ReferenceIdeal.Read.val_main_call4_cst_apply _)).symm

theorem zero64 : broadcast S512x64 (Scalar.ofBits (F := Ideal) .f32 0x00000000#32) = Cert.ReferenceIdeal.Read.val_main_call5_v0 (F := Ideal) :=
  funext fun i => ((Cert.ReferenceIdeal.Read.val_main_call5_v0_apply i).trans (Cert.ReferenceIdeal.Read.val_main_call5_cst_apply _)).symm

theorem dims2 : ∀ a : Fin 2, ((![0, 1] : Fin 2 → Fin 2) a).val = a.val + (2 - 2) := by decide

/-- The body's term is the head: three affine maps with `max (·, 0)` after the first two. -/
theorem pay_eq (x0 : Vec Ideal S512x128 .f32) (x1 : Vec Ideal S128x128 .f32) (x2 : Vec Ideal S1x128 .f32)
    (x3 : Vec Ideal S128x64 .f32) (x4 : Vec Ideal S1x64 .f32) (x5 : Vec Ideal S64x10 .f32) (x6 : Vec Ideal S1x10 .f32) :
    k8_pay1 (F := Ideal) x0 x1 x2 x3 x4 x5 x6 = mlpRef (F := Ideal) x0 x1 x2 x3 x4 x5 x6 := by
  unfold k8_pay1 mlpRef
  simp only [shapeCast_self]
  rw [matmul_zero_eq_dotGeneral Cert.KernelIdeal.dot_S512x128_S128x128_S512x128_1_0_0_1_n_n Cert.ReferenceIdeal.dot_S512x128_S128x128_S512x128_1_0_0_1_n_n rfl,
    broadcastTo_eq_broadcastInDim x2 _ ![0, 1] Cert.ReferenceIdeal.Facts₀.bcast_S1x128_S512x128_0_1 dims2, zero128,
    matmul_zero_eq_dotGeneral Cert.KernelIdeal.dot_S512x128_S128x64_S512x64_1_0_0_1_n_n Cert.ReferenceIdeal.dot_S512x128_S128x64_S512x64_1_0_0_1_n_n rfl,
    broadcastTo_eq_broadcastInDim x4 _ ![0, 1] Cert.ReferenceIdeal.Facts₀.bcast_S1x64_S512x64_0_1 dims2, zero64,
    matmul_zero_eq_dotGeneral Cert.KernelIdeal.dot_S512x64_S64x10_S512x10_1_0_0_1_n_n Cert.ReferenceIdeal.dot_S512x64_S64x10_S512x10_1_0_0_1_n_n rfl,
    broadcastTo_eq_broadcastInDim x6 _ ![0, 1] Cert.ReferenceIdeal.Facts₀.bcast_S1x10_S512x10_0_1 dims2]

/-! ## From the one block to the array

The grid has one point and every window's block is its whole array, at block index `(0, 0)`. -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid's one point: every window sits at block `(0, 0)`. -/
theorem idx_facts : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0 :=
  (by decide +kernel : ∀ t : Fin grid8.N, _)

/-- Window 0's block is its whole array. -/
theorem iblk_0 (c : Dev nD) (t : Fin cfg8.N) :
    (iblk8 (F := Ideal) V c 0 t : Vec Ideal S512x128 .f32) = V c main_v111 := by
  obtain ⟨e0, e1, -⟩ := idx_facts t
  funext j
  show V c main_v111 (((cfg8.win 0).blk t).view.emb j) = V c main_v111 j
  refine congrArg (V c main_v111) ?_
  funext a; apply Fin.ext
  match a with
  | ⟨0, _⟩ => show win8_0.index t (0 : Fin 2) * 512 + 1 * (j 0).val = (j 0).val; omega
  | ⟨1, _⟩ => show win8_0.index t (1 : Fin 2) * 128 + 1 * (j 1).val = (j 1).val; omega

/-- Window 1's block is its whole array. -/
theorem iblk_1 (c : Dev nD) (t : Fin cfg8.N) :
    (iblk8 (F := Ideal) V c 1 t : Vec Ideal S128x128 .f32) = V c main_arg5 := by
  obtain ⟨-, -, e0, e1, -⟩ := idx_facts t
  funext j
  show V c main_arg5 (((cfg8.win 1).blk t).view.emb j) = V c main_arg5 j
  refine congrArg (V c main_arg5) ?_
  funext a; apply Fin.ext
  match a with
  | ⟨0, _⟩ => show win8_1.index t (0 : Fin 2) * 128 + 1 * (j 0).val = (j 0).val; omega
  | ⟨1, _⟩ => show win8_1.index t (1 : Fin 2) * 128 + 1 * (j 1).val = (j 1).val; omega

/-- Window 2's block is its whole array. -/
theorem iblk_2 (c : Dev nD) (t : Fin cfg8.N) :
    (iblk8 (F := Ideal) V c 2 t : Vec Ideal S1x128 .f32) = V c main_v112 := by
  obtain ⟨-, -, -, -, e0, e1, -⟩ := idx_facts t
  funext j
  show V c main_v112 (((cfg8.win 2).blk t).view.emb j) = V c main_v112 j
  refine congrArg (V c main_v112) ?_
  funext a; apply Fin.ext
  match a with
  | ⟨0, _⟩ => show win8_2.index t (0 : Fin 2) * 1 + 1 * (j 0).val = (j 0).val; omega
  | ⟨1, _⟩ => show win8_2.index t (1 : Fin 2) * 128 + 1 * (j 1).val = (j 1).val; omega

/-- Window 3's block is its whole array. -/
theorem iblk_3 (c : Dev nD) (t : Fin cfg8.N) :
    (iblk8 (F := Ideal) V c 3 t : Vec Ideal S128x64 .f32) = V c main_arg7 := by
  obtain ⟨-, -, -, -, -, -, e0, e1, -⟩ := idx_facts t
  funext j
  show V c main_arg7 (((cfg8.win 3).blk t).view.emb j) = V c main_arg7 j
  refine congrArg (V c main_arg7) ?_
  funext a; apply Fin.ext
  match a with
  | ⟨0, _⟩ => show win8_3.index t (0 : Fin 2) * 128 + 1 * (j 0).val = (j 0).val; omega
  | ⟨1, _⟩ => show win8_3.index t (1 : Fin 2) * 64 + 1 * (j 1).val = (j 1).val; omega

/-- Window 4's block is its whole array. -/
theorem iblk_4 (c : Dev nD) (t : Fin cfg8.N) :
    (iblk8 (F := Ideal) V c 4 t : Vec Ideal S1x64 .f32) = V c main_v113 := by
  obtain ⟨-, -, -, -, -, -, -, -, e0, e1, -⟩ := idx_facts t
  funext j
  show V c main_v113 (((cfg8.win 4).blk t).view.emb j) = V c main_v113 j
  refine congrArg (V c main_v113) ?_
  funext a; apply Fin.ext
  match a with
  | ⟨0, _⟩ => show win8_4.index t (0 : Fin 2) * 1 + 1 * (j 0).val = (j 0).val; omega
  | ⟨1, _⟩ => show win8_4.index t (1 : Fin 2) * 64 + 1 * (j 1).val = (j 1).val; omega

/-- Window 5's block is its whole array. -/
theorem iblk_5 (c : Dev nD) (t : Fin cfg8.N) :
    (iblk8 (F := Ideal) V c 5 t : Vec Ideal S64x10 .f32) = V c main_arg9 := by
  obtain ⟨-, -, -, -, -, -, -, -, -, -, e0, e1, -⟩ := idx_facts t
  funext j
  show V c main_arg9 (((cfg8.win 5).blk t).view.emb j) = V c main_arg9 j
  refine congrArg (V c main_arg9) ?_
  funext a; apply Fin.ext
  match a with
  | ⟨0, _⟩ => show win8_5.index t (0 : Fin 2) * 64 + 1 * (j 0).val = (j 0).val; omega
  | ⟨1, _⟩ => show win8_5.index t (1 : Fin 2) * 10 + 1 * (j 1).val = (j 1).val; omega

/-- Window 6's block is its whole array. -/
theorem iblk_6 (c : Dev nD) (t : Fin cfg8.N) :
    (iblk8 (F := Ideal) V c 6 t : Vec Ideal S1x10 .f32) = V c main_v114 := by
  obtain ⟨-, -, -, -, -, -, -, -, -, -, -, -, e0, e1, -⟩ := idx_facts t
  funext j
  show V c main_v114 (((cfg8.win 6).blk t).view.emb j) = V c main_v114 j
  refine congrArg (V c main_v114) ?_
  funext a; apply Fin.ext
  match a with
  | ⟨0, _⟩ => show win8_6.index t (0 : Fin 2) * 1 + 1 * (j 0).val = (j 0).val; omega
  | ⟨1, _⟩ => show win8_6.index t (1 : Fin 2) * 10 + 1 * (j 1).val = (j 1).val; omega

/-- WHAT THE ONE POINT WRITES BACK is the head of the arrays as the region finds them, read through the window's
    block — the whole array. -/
theorem flushed_eq (c : Dev nD) (t : Fin cfg8.N) :
    (dat8 (F := Ideal) V c).flushed 7 t = ((cfg8.win 7).blk t).view.read (Elt Ideal)
      (mlpRef (F := Ideal) (V c main_v111) (V c main_arg5) (V c main_v112) (V c main_arg7) (V c main_v113) (V c main_arg9) (V c main_v114)) := by
  show (cfg8.win 7).cut (grid8.coords t) ((dat8 V c).after 7 t) = _
  rw [after8_7]
  unfold out8_7
  rw [View.canon_unit_zero hz]
  simp only [View.ld_unit_zero (S := S512x128) hz, View.ld_unit_zero (S := S128x128) hz, View.ld_unit_zero (S := S1x128) hz,
    View.ld_unit_zero (S := S128x64) hz, View.ld_unit_zero (S := S1x64) hz, View.ld_unit_zero (S := S64x10) hz,
    View.ld_unit_zero (S := S1x10) hz]
  rw [pay_eq, iblk_0, iblk_1, iblk_2, iblk_3, iblk_4, iblk_5, iblk_6]
  obtain ⟨-, -, -, -, -, -, -, -, -, -, -, -, -, -, e0, e1⟩ := idx_facts t
  funext j
  show mlpRef (F := Ideal) (V c main_v111) (V c main_arg5) (V c main_v112) (V c main_arg7) (V c main_v113) (V c main_arg9) (V c main_v114) ((cfg8.win 7).xinj (grid8.coords t) j)
    = mlpRef (F := Ideal) (V c main_v111) (V c main_arg5) (V c main_v112) (V c main_arg7) (V c main_v113) (V c main_arg9) (V c main_v114) (((cfg8.win 7).blk t).view.emb j)
  refine congrArg (mlpRef (F := Ideal) (V c main_v111) (V c main_arg5) (V c main_v112) (V c main_arg7) (V c main_v113) (V c main_arg9) (V c main_v114)) ?_
  funext a; apply Fin.ext
  match a with
  | ⟨0, _⟩ => show (j 0).val = win8_7.index t (0 : Fin 2) * 512 + 1 * (j 0).val; omega
  | ⟨1, _⟩ => show (j 1).val = win8_7.index t (1 : Fin 2) * 10 + 1 * (j 1).val; omega

/-- An index of the array is in the point's block iff each coordinate is in the block's range on its axis. -/
theorem mem_blk (t : Fin cfg8.N) (i : S512x10.Idx) :
    i ∈ ((cfg8.win 7).blk t).view.set ↔ ∀ a : Fin 2, win8_7.index t a * S512x10.size a ≤ (i a).val ∧ (i a).val < win8_7.index t a * S512x10.size a + S512x10.size a := by
  show i ∈ ((View.whole main_v115).slice (win8_7.rect t)).set ↔ _
  rw [View.set_slice_whole, Rect.mem_set_unit]
  exact Iff.rfl

/-- THE ARRAY the region leaves: the head of the arrays as the region finds them. The one block covers every index. -/
theorem arrAt8 (c : Dev nD) :
    (dat8 (F := Ideal) V c).arrAt 7 cfg8.N = mlpRef (F := Ideal) (V c main_v111) (V c main_arg5) (V c main_v112) (V c main_arg7) (V c main_v113) (V c main_arg9) (V c main_v114) :=
  (dat8 (F := Ideal) V c).arrAt_eq_of_cover 7 _ (fun t _ => flushed_eq V c t) (fun i => by
    refine ⟨t8_0, flush8_7 t8_0, ?_⟩
    rw [mem_blk]
    obtain ⟨-, -, -, -, -, -, -, -, -, -, -, -, -, -, e0, e1⟩ := idx_facts t8_0
    intro a
    match a with
    | ⟨0, _⟩ =>
      show win8_7.index t8_0 (0 : Fin 2) * 512 ≤ (i 0).val ∧ (i 0).val < win8_7.index t8_0 (0 : Fin 2) * 512 + 512
      have h0 : (i 0).val < 512 := (i 0).isLt
      omega
    | ⟨1, _⟩ =>
      show win8_7.index t8_0 (1 : Fin 2) * 10 ≤ (i 1).val ∧ (i 1).val < win8_7.index t8_0 (1 : Fin 2) * 10 + 10
      have h1 : (i 1).val < 10 := (i 1).isLt
      omega)

end Cert.KernelIdeal.Mlp

end
-- ==== Proof.Linear.lean ====
/-
  The four row-tiled linear transforms (one per graph-convolution layer): each pipelined region multiplies ten row
  blocks [5000,128] of its input by the whole weight matrix [128,128] and writes each product back to the matching row
  block of the result. Read at an entry, a block product and the whole product are the same sum over the 128 contracted
  positions, and the ten row blocks tile the result, so the array a region leaves is the whole product of the arrays it
  found.
-/
import proofs.«132292_j27307402068686_1_alg».proof.Proof.Gen.KernelIdeal.Frame
import proofs.«132292_j27307402068686_1_alg».proof.Proof.Gen.ReferenceIdeal.Read
import proofs.«132292_j27307402068686_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Linear

open Idealize.ShloMosaic Idealize.ShloMosaic.TcCoe Idealize.SL.Sem Cert.KernelIdeal Cert.KernelIdeal.Gen
open Idealize.ShloMosaic.ValueIdx
open Cert.Spec

theorem zeroOffsets : (![0, 0] : Fin 2 → Nat) = fun _ => 0 := funext fun a => by fin_cases a <;> rfl

/-! ## A row block times the weights, at an entry -/

theorem blockLhs_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blockLhs_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem blockRhs_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem blockRhs_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A row-block product at an entry: the sum over the 128 contracted positions. -/
theorem blockProd_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [shapeCast_self]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blockLhs_0 _ _
    | ⟨1, _⟩ => exact (blockLhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blockRhs_0 _ _).trans hk
    | ⟨1, _⟩ => exact blockRhs_1 _ _)
  rw [el, er]
  rfl

/-! ## The whole product, at an entry -/

/-- The whole product at an entry: the same sum over the 128 contracted positions. -/
theorem linRef_apply (h : (⟨S50000x128, .f32⟩ : BufTy).Contents (Elt Ideal)) (W : (⟨S128x128, .f32⟩ : BufTy).Contents (Elt Ideal))
    (r : Fin 50000) (q : Fin 128) :
    linRef (F := Ideal) h W (ix2 r q) = ∑ k : Fin 128, h (ix2 r k) * W (ix2 k q) := by
  unfold linRef
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact Cert.ReferenceIdeal.Read.lhs_main_v34_0 _ _
    | ⟨1, _⟩ => exact (Cert.ReferenceIdeal.Read.lhs_main_v34_1 _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (Cert.ReferenceIdeal.Read.rhs_main_v34_0 _ _).trans hk
    | ⟨1, _⟩ => exact Cert.ReferenceIdeal.Read.rhs_main_v34_1 _ _)
  rw [el, er]

/-! ## Region 0: from row blocks to the array -/

section
variable (V : (c : Dev nD) → (b : Ref sig .tc) → Buf (Elt Ideal) ((c : Thread nD τ).loc b))

/-- The printed index maps over the grid: the input's and the output's row blocks move together, the weights stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is row block t of the whole product. -/
theorem flushed0_eq (c : Dev nD) (t : Fin cfg0.N) :
    (dat0 (F := Ideal) V c).flushed 2 t
      = ((cfg0.win 2).blk t).view.read (Elt Ideal) (linRef (F := Ideal) (V c main_arg0) (V c main_v30)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨e00, e01, e10, e11, e20, e21⟩ := idx_facts0 t
  have ht : t.val < 10 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  show k0_pay1 (iblk0 V c 0 t) (iblk0 V c 1 t) (ix2 p q)
    = linRef (F := Ideal) (V c main_arg0) (V c main_v30) (((cfg0.win 2).blk t).view.emb (ix2 p q))
  have hi : ((cfg0.win 2).blk t).view.emb (ix2 p q) = ix2 (⟨t.val * 5000 + p.val, by omega⟩ : Fin 50000) q :=
    funext fun a => Fin.ext (by
      match a with
      | ⟨0, _⟩ => show win0_2.index t (0 : Fin 2) * 5000 + 1 * p.val = t.val * 5000 + p.val; omega
      | ⟨1, _⟩ => show win0_2.index t (1 : Fin 2) * 128 + 1 * q.val = q.val; omega)
  rw [hi, linRef_apply]
  refine (blockProd_apply (iblk0 V c 0 t) (iblk0 V c 1 t) p q).trans ?_
  refine Finset.sum_congr rfl fun k _ => ?_
  have h0 : iblk0 V c 0 t (ix2 p k) = V c main_arg0 (ix2 (⟨t.val * 5000 + p.val, by omega⟩ : Fin 50000) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : iblk0 V c 1 t (ix2 k q) = V c main_v30 (ix2 k q) := by
    show V c main_v30 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An entry of the array is in point t's row block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- The ten row blocks tile the array: row r lies in block r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, htv⟩ : ∃ t : Fin cfg0.N, t.val = (i 0).val / 5000 := ⟨⟨(i 0).val / 5000, by omega⟩, rfl⟩
  obtain ⟨-, -, -, -, e20, e21⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0 leaves the whole product of the arrays it found. -/
theorem arrAt0 (c : Dev nD) :
    (dat0 (F := Ideal) V c).arrAt 2 cfg0.N = linRef (F := Ideal) (V c main_arg0) (V c main_v30) :=
  (dat0 (F := Ideal) V c).arrAt_eq_of_cover 2 (linRef (F := Ideal) (V c main_arg0) (V c main_v30))
    (fun t _ => flushed0_eq V c t) cover0
end

/-! ## Region 2: from row blocks to the array -/

/-- Region 2's block arithmetic is region 0's: the extra reshape of the row block to its own shape is the identity. -/
theorem pay2_eq (x0 : Vec Ideal S5000x128 .f32) (x1 : Vec Ideal S128x128 .f32) :
    k2_pay1 (F := Ideal) x0 x1 = k0_pay1 (F := Ideal) x0 x1 := by
  unfold k2_pay1 k0_pay1
  simp only [shapeCast_self]

section
variable (V : (c : Dev nD) → (b : Ref sig .tc) → Buf (Elt Ideal) ((c : Thread nD τ).loc b))

/-- The printed index maps over the grid: the input's and the output's row blocks move together, the weights stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is row block t of the whole product. -/
theorem flushed2_eq (c : Dev nD) (t : Fin cfg2.N) :
    (dat2 (F := Ideal) V c).flushed 2 t
      = ((cfg2.win 2).blk t).view.read (Elt Ideal) (linRef (F := Ideal) (V c main_v48) (V c main_v50)) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S128x128) zeroOffsets]
  obtain ⟨e00, e01, e10, e11, e20, e21⟩ := idx_facts2 t
  have ht : t.val < 10 := lt_of_lt_of_eq t.isLt N_2
  funext j
  obtain ⟨p, q, rfl⟩ : ∃ (p : Fin 5000) (q : Fin 128), j = ix2 p q := ⟨j 0, j 1, eq_ix2 j⟩
  have hp : p.val < 5000 := p.isLt
  show k2_pay1 (iblk2 V c 0 t) (iblk2 V c 1 t) (ix2 p q)
    = linRef (F := Ideal) (V c main_v48) (V c main_v50) (((cfg2.win 2).blk t).view.emb (ix2 p q))
  have hi : ((cfg2.win 2).blk t).view.emb (ix2 p q) = ix2 (⟨t.val * 5000 + p.val, by omega⟩ : Fin 50000) q :=
    funext fun a => Fin.ext (by
      match a with
      | ⟨0, _⟩ => show win2_2.index t (0 : Fin 2) * 5000 + 1 * p.val = t.val * 5000 + p.val; omega
      | ⟨1, _⟩ => show win2_2.index t (1 : Fin 2) * 128 + 1 * q.val = q.val; omega)
  rw [hi, linRef_apply]
  refine ((congrFun (pay2_eq (iblk2 V c 0 t) (iblk2 V c 1 t)) (ix2 p q)).trans (blockProd_apply (iblk2 V c 0 t) (iblk2 V c 1 t) p q)).trans ?_
  refine Finset.sum_congr rfl fun k _ => ?_
  have h0 : iblk2 V c 0 t (ix2 p k) = V c main_v48 (ix2 (⟨t.val * 5000 + p.val, by omega⟩ : Fin 50000) k) := by
    show V c main_v48 (((cfg2.win 0).blk t).view.emb (ix2 p k)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : iblk2 V c 1 t (ix2 k q) = V c main_v50 (ix2 k q) := by
    show V c main_v50 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  rw [h0, h1]

/-- An entry of the array is in point t's row block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v53).slice (win2_2.rect t)).set ↔ _
  rw [View.set_slice_whole, Rect.mem_set_unit]
  exact Iff.rfl

/-- The ten row blocks tile the array: row r lies in block r / 5000. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, htv⟩ : ∃ t : Fin cfg2.N, t.val = (i 0).val / 5000 := ⟨⟨(i 0).val / 5000, by omega⟩, rfl⟩
  obtain ⟨-, -, -, -, e20, e21⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- Region 2 leaves the whole product of the arrays it found. -/
theorem arrAt2 (c : Dev nD) :
    (dat2 (F := Ideal) V c).arrAt 2 cfg2.N = linRef (F := Ideal) (V c main_v48) (V c main_v50) :=
  (dat2 (F := Ideal) V c).arrAt_eq_of_cover 2 (linRef (F := Ideal) (V c main_v48) (V c main_v50))
    (fun t _ => flushed2_eq V c t) cover2
end

/-! ## Region 4: from row blocks to the array -/

/-- Region 4's block arithmetic is region 0's: the extra reshape of the row block to its own shape is the identity. -/
theorem pay4_eq (x0 : Vec Ideal S5000x128 .f32) (x1 : Vec Ideal S128x128 .f32) :
    k4_pay1 (F := Ideal) x0 x1 = k0_pay1 (F := Ideal) x0 x1 := by
  unfold k4_pay1 k0_pay1
  simp only [shapeCast_self]

section
variable (V : (c : Dev nD) → (b : Ref sig .tc) → Buf (Elt Ideal) ((c : Thread nD τ).loc b))

/-- The printed index maps over the grid: the input's and the output's row blocks move together, the weights stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is row block t of the whole product. -/
theorem flushed4_eq (c : Dev nD) (t : Fin cfg4.N) :
    (dat4 (F := Ideal) V c).flushed 2 t
      = ((cfg4.win 2).blk t).view.read (Elt Ideal) (linRef (F := Ideal) (V c main_v68) (V c main_v70)) := by
  show (cfg4.win 2).cut (grid4.coords t) ((dat4 V c).after 2 t) = _
  rw [after4_2]
  unfold out4_2
  rw [View.canon_unit_zero zeroOffsets]
  simp only [View.ld_unit_zero (S := S5000x128) zeroOffsets, View.ld_unit_zero (S := S128x128) zeroOffsets]
  obtain ⟨e00, e01, e10, e11, e20, e21⟩ := idx_facts4 t
  have ht : t.val < 10 := lt_of_lt_of_eq t.isLt N_4
  funext j
  obtain ⟨p, q, rfl⟩ : ∃ (p : Fin 5000) (q : Fin 128), j = ix2 p q := ⟨j 0, j 1, eq_ix2 j⟩
  have hp : p.val < 5000 := p.isLt
  show k4_pay1 (iblk4 V c 0 t) (iblk4 V c 1 t) (ix2 p q)
    = linRef (F := Ideal) (V c main_v68) (V c main_v70) (((cfg4.win 2).blk t).view.emb (ix2 p q))
  have hi : ((cfg4.win 2).blk t).view.emb (ix2 p q) = ix2 (⟨t.val * 5000 + p.val, by omega⟩ : Fin 50000) q :=
    funext fun a => Fin.ext (by
      match a with
      | ⟨0, _⟩ => show win4_2.index t (0 : Fin 2) * 5000 + 1 * p.val = t.val * 5000 + p.val; omega
      | ⟨1, _⟩ => show win4_2.index t (1 : Fin 2) * 128 + 1 * q.val = q.val; omega)
  rw [hi, linRef_apply]
  refine ((congrFun (pay4_eq (iblk4 V c 0 t) (iblk4 V c 1 t)) (ix2 p q)).trans (blockProd_apply (iblk4 V c 0 t) (iblk4 V c 1 t) p q)).trans ?_
  refine Finset.sum_congr rfl fun k _ => ?_
  have h0 : iblk4 V c 0 t (ix2 p k) = V c main_v68 (ix2 (⟨t.val * 5000 + p.val, by omega⟩ : Fin 50000) k) := by
    show V c main_v68 (((cfg4.win 0).blk t).view.emb (ix2 p k)) = _
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  have h1 : iblk4 V c 1 t (ix2 k q) = V c main_v70 (ix2 k q) := by
    show V c main_v70 (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = q.val; omega
  rw [h0, h1]

/-- An entry of the array is in point t's row block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v73).slice (win4_2.rect t)).set ↔ _
  rw [View.set_slice_whole, Rect.mem_set_unit]
  exact Iff.rfl

/-- The ten row blocks tile the array: row r lies in block r / 5000. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  obtain ⟨t, htv⟩ : ∃ t : Fin cfg4.N, t.val = (i 0).val / 5000 := ⟨⟨(i 0).val / 5000, by omega⟩, rfl⟩
  obtain ⟨-, -, -, -, e20, e21⟩ := idx_facts4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- Region 4 leaves the whole product of the arrays it found. -/
theorem arrAt4 (c : Dev nD) :
    (dat4 (F := Ideal) V c).arrAt 2 cfg4.N = linRef (F := Ideal) (V c main_v68) (V c main_v70) :=
  (dat4 (F := Ideal) V c).arrAt_eq_of_cover 2 (linRef (F := Ideal) (V c main_v68) (V c main_v70))
    (fun t _ => flushed4_eq V c t) cover4
end

/-! ## Region 6: from row blocks to the array -/

/-- Region 6's block arithmetic is region 0's: the extra reshape of the row block to its own shape is the identity. -/
theorem pay6_eq (x0 : Vec Ideal S5000x128 .f32) (x1 : Vec Ideal S128x128 .f32) :
    k6_pay1 (F := Ideal) x0 x1 = k0_pay1 (F := Ideal) x0 x1 := by
  unfold k6_pay1 k0_pay1
  simp only [shapeCast_self]

section
variable (V : (c : Dev nD) → (b : Ref sig .tc) → Buf (Elt Ideal) ((c : Thread nD τ).loc b))

/-- The printed index maps over the grid: the input's and the output's row blocks move together, the weights stay. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is row block t of the whole product. -/
theorem flushed6_eq (c : Dev nD) (t : Fin cfg6.N) :
    (dat6 (F := Ideal) V c).flushed 2 t
      = ((cfg6.win 2).blk t).view.read (Elt Ideal) (linRef (F := Ideal) (V c main_v88) (V c main_v90)) := by
  show (cfg6.win 2).cut (grid6.coords t) ((dat6 V c).after 2 t) = _
  rw [after6_2]
  unfold out6_2
  rw [View.canon_unit_zero zeroOffsets]
  simp only [View.ld_unit_zero (S := S5000x128) zeroOffsets, View.ld_unit_zero (S := S128x128) zeroOffsets]
  obtain ⟨e00, e01, e10, e11, e20, e21⟩ := idx_facts6 t
  have ht : t.val < 10 := lt_of_lt_of_eq t.isLt N_6
  funext j
  obtain ⟨p, q, rfl⟩ : ∃ (p : Fin 5000) (q : Fin 128), j = ix2 p q := ⟨j 0, j 1, eq_ix2 j⟩
  have hp : p.val < 5000 := p.isLt
  show k6_pay1 (iblk6 V c 0 t) (iblk6 V c 1 t) (ix2 p q)
    = linRef (F := Ideal) (V c main_v88) (V c main_v90) (((cfg6.win 2).blk t).view.emb (ix2 p q))
  have hi : ((cfg6.win 2).blk t).view.emb (ix2 p q) = ix2 (⟨t.val * 5000 + p.val, by omega⟩ : Fin 50000) q :=
    funext fun a => Fin.ext (by
      match a with
      | ⟨0, _⟩ => show win6_2.index t (0 : Fin 2) * 5000 + 1 * p.val = t.val * 5000 + p.val; omega
      | ⟨1, _⟩ => show win6_2.index t (1 : Fin 2) * 128 + 1 * q.val = q.val; omega)
  rw [hi, linRef_apply]
  refine ((congrFun (pay6_eq (iblk6 V c 0 t) (iblk6 V c 1 t)) (ix2 p q)).trans (blockProd_apply (iblk6 V c 0 t) (iblk6 V c 1 t) p q)).trans ?_
  refine Finset.sum_congr rfl fun k _ => ?_
  have h0 : iblk6 V c 0 t (ix2 p k) = V c main_v88 (ix2 (⟨t.val * 5000 + p.val, by omega⟩ : Fin 50000) k) := by
    show V c main_v88 (((cfg6.win 0).blk t).view.emb (ix2 p k)) = _
    refine congrArg _ (funext fun a => Fin.ext ?_)
    match a with
    | ⟨0, _⟩ => show win6_0.index t (0 : Fin 2) * 5000 + 1 * p.val = t.val * 5000 + p.val; omega
    | ⟨1, _⟩ => show win6_0.index t (1 : Fin 2) * 128 + 1 * k.val = k.val; omega
  have h1 : iblk6 V c 1 t (ix2 k q) = V c main_v90 (ix2 k q) := by
    show V c main_v90 (((cfg6.win 1).blk t).view.emb (ix2 k q)) = _
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * q.val = q.val; omega
  rw [h0, h1]

/-- An entry of the array is in point t's row block iff each coordinate is in the block's range on its axis. -/
theorem mem_blk6 (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v93).slice (win6_2.rect t)).set ↔ _
  rw [View.set_slice_whole, Rect.mem_set_unit]
  exact Iff.rfl

/-- The ten row blocks tile the array: row r lies in block r / 5000. -/
theorem cover6 (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 10 := N_6
  obtain ⟨t, htv⟩ : ∃ t : Fin cfg6.N, t.val = (i 0).val / 5000 := ⟨⟨(i 0).val / 5000, by omega⟩, rfl⟩
  obtain ⟨-, -, -, -, e20, e21⟩ := idx_facts6 t
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- Region 6 leaves the whole product of the arrays it found. -/
theorem arrAt6 (c : Dev nD) :
    (dat6 (F := Ideal) V c).arrAt 2 cfg6.N = linRef (F := Ideal) (V c main_v88) (V c main_v90) :=
  (dat6 (F := Ideal) V c).arrAt_eq_of_cover 2 (linRef (F := Ideal) (V c main_v88) (V c main_v90))
    (fun t _ => flushed6_eq V c t) cover6
end

end Cert.KernelIdeal.Linear

end
-- ==== Proof.Combine.lean ====
/-
  The four epilogue regions of the graph-convolution layers (regions 1, 3, 5, 7) leave, in their result array, the
  whole-array function `max (agg + h₂ · sₙ + b, 0)` of the arrays they find on entry: `agg` and `h₂` of shape
  [50000, 128], the per-node scale `sₙ` a column [50000, 1], the bias `b` a row [1, 128].

  Each region walks ten row blocks of 5000 rows. At a point the body reads the blocks of `agg`, `h₂` and `sₙ` at the
  point's row block and the whole bias, and stores `max (agg + h₂ · sₙ + b, 0)` with the column and the row broadcast
  over the block. Read at one element (row `p`, lane `q` of the block) that is
  `max (agg[p, q] + h₂[p, q] · sₙ[p, 0] + b[0, q], 0)`; the whole-array function read at row `5000·t + p`, lane `q` is
  the same expression of the same array elements, because the three moving windows sit at the result's row block and
  the bias window at lane block `0`. The ten blocks tile the 50000 rows (row `r` lies in block `r / 5000`), so the
  array after the last write-back is the whole-array function everywhere.
-/
import proofs.«132292_j27307402068686_1_alg».proof.Proof.Gen.KernelIdeal.Frame
import proofs.«132292_j27307402068686_1_alg».proof.Proof.Gen.ReferenceIdeal.Read
import proofs.«132292_j27307402068686_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Combine

open Idealize.ShloMosaic Idealize.ShloMosaic.TcCoe Idealize.SL.Sem Cert.KernelIdeal Cert.KernelIdeal.Gen
open Idealize.ShloMosaic.ValueIdx
open Idealize.ShloMosaic.Pipeline (Dat)
open Cert.Spec

/-- The zero offsets of a whole-buffer access, as a constant function. -/
theorem zero_off : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result block at row `p`, lane `q`: `max (agg + h₂ · sₙ + b, 0)` of the loaded blocks' entries. -/
theorem out1_4_apply (x0 x1 : Vec Ideal S5000x128 .f32) (x2 : Vec Ideal S5000x1 .f32) (x3 : Vec Ideal S1x128 .f32)
    (p : Fin 5000) (q : Fin 128) :
    out1_4 (F := Ideal) x0 x1 x2 x3 (ix2 p q)
      = max (x0 (ix2 p q) + x1 (ix2 p q) * x2 (ix2 p (0 : Fin 1)) + x3 (ix2 (0 : Fin 1) q)) (Ideal.ofBits .f32 0x00000000#32) := by
  unfold out1_4
  rw [View.canon_unit_zero zero_off]
  simp only [View.ld_unit_zero (S := S5000x128) zero_off, View.ld_unit_zero (S := S5000x1) zero_off,
    View.ld_unit_zero (S := S1x128) zero_off]
  unfold k1_pay1
  simp only [shapeCast_self]
  rw [maximumf_apply, addf_apply, addf_apply, mulf_apply, broadcast_apply,
    broadcastTo_a1_ab_apply, broadcastTo_1b_ab_apply]
  rfl

/-- The same block at any index `y`, the column's and the row's indices named by their moving coordinate. -/
theorem out1_4_at (x0 x1 : Vec Ideal S5000x128 .f32) (x2 : Vec Ideal S5000x1 .f32) (x3 : Vec Ideal S1x128 .f32)
    (y : S5000x128.Idx) (y2 : S5000x1.Idx) (y3 : S1x128.Idx) (h2 : (y2 0).val = (y 0).val) (h3 : (y3 1).val = (y 1).val) :
    out1_4 (F := Ideal) x0 x1 x2 x3 y = max (x0 y + x1 y * x2 y2 + x3 y3) (Ideal.ofBits .f32 0x00000000#32) := by
  obtain ⟨p, q, rfl⟩ : ∃ (p : Fin 5000) (q : Fin 128), y = ix2 p q := ⟨y 0, y 1, eq_ix2 y⟩
  have e2 : y2 = ix2 p (0 : Fin 1) := by
    funext a; apply Fin.ext
    match a with
    | ⟨0, _⟩ => exact h2
    | ⟨1, _⟩ => show (y2 1).val = 0; have : (y2 1).val < 1 := (y2 1).isLt; omega
  have e3 : y3 = ix2 (0 : Fin 1) q := by
    funext a; apply Fin.ext
    match a with
    | ⟨0, _⟩ => show (y3 0).val = 0; have : (y3 0).val < 1 := (y3 0).isLt; omega
    | ⟨1, _⟩ => exact h3
  rw [e2, e3]
  exact out1_4_apply x0 x1 x2 x3 p q

/-- The whole-array epilogue at an index: the scale read at the index's row, the bias at its lane. -/
theorem combineRef_at (a h : (⟨S50000x128, .f32⟩ : BufTy).Contents (Elt Ideal)) (s : (⟨S50000x1, .f32⟩ : BufTy).Contents (Elt Ideal))
    (b : (⟨S1x128, .f32⟩ : BufTy).Contents (Elt Ideal)) (i : S50000x128.Idx) (i2 : S50000x1.Idx) (i3 : S1x128.Idx)
    (h2 : (i2 0).val = (i 0).val) (h3 : (i3 1).val = (i 1).val) :
    combineRef (F := Ideal) a h s b i = max (a i + h i * s i2 + b i3) (Ideal.ofBits .f32 0x00000000#32) := by
  unfold combineRef
  rw [maximumf_apply, addf_apply, addf_apply, mulf_apply,
    broadcastInDim_apply _ _ s i i2 (fun ax => match ax with
      | ⟨0, _⟩ => by show (i2 0).val = if (50000 : Nat) = 1 then 0 else (i 0).val; rw [if_neg (by decide)]; exact h2
      | ⟨1, _⟩ => by
        show (i2 1).val = if (1 : Nat) = 1 then 0 else (i 1).val
        rw [if_pos rfl]; have : (i2 1).val < 1 := (i2 1).isLt; omega),
    broadcastInDim_apply _ _ b i i3 (fun ax => match ax with
      | ⟨0, _⟩ => by
        show (i3 0).val = if (1 : Nat) = 1 then 0 else (i 0).val
        rw [if_pos rfl]; have : (i3 0).val < 1 := (i3 0).isLt; omega
      | ⟨1, _⟩ => by show (i3 1).val = if (128 : Nat) = 1 then 0 else (i 1).val; rw [if_neg (by decide)]; exact h3),
    Cert.ReferenceIdeal.Read.val_main_call0_v0_apply, Cert.ReferenceIdeal.Read.val_main_call0_cst_apply]
  rfl

/-! ## Region 1 -/

section Region1
variable (V : (c : Dev nD) → (b : Ref sig .tc) → Buf (Elt Ideal) ((c : Thread nD τ).loc b))

/-- The printed index maps of region 1, decided once over its grid: the two data windows and the scale's window move with
    the result's block along the rows, the bias's window stays at the result's (only) lane block, and the result's block
    at point `t` is row block `t`, lane block `0`. -/
theorem idx_facts1 : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2)
    ∧ win1_3.index t (1 : Fin 2) = win1_4.index t (1 : Fin 2)
    ∧ win1_4.index t (0 : Fin 2) = t.val ∧ win1_4.index t (1 : Fin 2) = 0 :=
  (by decide +kernel : ∀ t : Fin grid1.N, _)

/-- What point `t` writes back is block `t` of the whole-array epilogue of the arrays as the region finds them. -/
theorem flushed1_eq (c : Dev nD) (t : Fin cfg1.N) :
    (dat1 (F := Ideal) V c).flushed 4 t = ((cfg1.win 4).blk t).view.read (Elt Ideal)
      (combineRef (F := Ideal) (V c main_v45) (V c main_v33) (V c main_v47) (V c main_v46)) := by
  show (cfg1.win 4).cut (grid1.coords t) ((dat1 V c).after 4 t) = _
  rw [after1_4]
  obtain ⟨e00, e01, e10, e11, e20, e31, e40, e41⟩ := idx_facts1 t
  funext j
  have hj0 : (j 0).val < 5000 := (j 0).isLt
  have hj1 : (j 1).val < 128 := (j 1).isLt
  -- the scale's and the bias's block indices under `j`: its row in the one column, its lane in the one row
  let y2 : S5000x1.Idx := ix2 (⟨(j 0).val, hj0⟩ : Fin 5000) (0 : Fin 1)
  let y3 : S1x128.Idx := ix2 (0 : Fin 1) (⟨(j 1).val, hj1⟩ : Fin 128)
  show out1_4 (iblk1 V c 0 t) (iblk1 V c 1 t) (iblk1 V c 2 t) (iblk1 V c 3 t) ((cfg1.win 4).xinj (grid1.coords t) j)
    = combineRef (F := Ideal) (V c main_v45) (V c main_v33) (V c main_v47) (V c main_v46) (((cfg1.win 4).blk t).view.emb j)
  have c2 : ((((cfg1.win 2).blk t).view.emb y2) 0).val = ((((cfg1.win 4).blk t).view.emb j) 0).val := by
    show win1_2.index t (0 : Fin 2) * 5000 + 1 * (j 0).val = win1_4.index t (0 : Fin 2) * 5000 + 1 * (j 0).val
    omega
  have c3 : ((((cfg1.win 3).blk t).view.emb y3) 1).val = ((((cfg1.win 4).blk t).view.emb j) 1).val := by
    show win1_3.index t (1 : Fin 2) * 128 + 1 * (j 1).val = win1_4.index t (1 : Fin 2) * 128 + 1 * (j 1).val
    omega
  have h0 : ((cfg1.win 0).blk t).view.emb ((cfg1.win 4).xinj (grid1.coords t) j) = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb ((cfg1.win 4).xinj (grid1.coords t) j) = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have t0 : iblk1 V c 0 t ((cfg1.win 4).xinj (grid1.coords t) j) = V c main_v45 (((cfg1.win 4).blk t).view.emb j) :=
    congrArg (V c main_v45) h0
  have t1 : iblk1 V c 1 t ((cfg1.win 4).xinj (grid1.coords t) j) = V c main_v33 (((cfg1.win 4).blk t).view.emb j) :=
    congrArg (V c main_v33) h1
  rw [out1_4_at _ _ _ _ _ y2 y3 rfl rfl,
    combineRef_at _ _ _ _ _ (((cfg1.win 2).blk t).view.emb y2) (((cfg1.win 3).blk t).view.emb y3) c2 c3, t0, t1]
  rfl

/-- An index of the result array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v48).slice (win1_4.rect t)).set ↔ _
  rw [View.set_slice_whole, Rect.mem_set_unit]
  exact Iff.rfl

/-- The ten row blocks tile the result array: row `r` is in the block of point `r / 5000`. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, e40, e41⟩ := idx_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- THE RESULT ARRAY region 1 leaves is the whole-array epilogue of its four entry arrays. -/
theorem arrAt1 (c : Dev nD) :
    (dat1 (F := Ideal) V c).arrAt 4 cfg1.N
      = combineRef (F := Ideal) (V c main_v45) (V c main_v33) (V c main_v47) (V c main_v46) :=
  (dat1 V c).arrAt_eq_of_cover 4 _ (fun t _ => flushed1_eq V c t) cover1

end Region1

/-! ## Region 3 -/

section Region3
variable (V : (c : Dev nD) → (b : Ref sig .tc) → Buf (Elt Ideal) ((c : Thread nD τ).loc b))

/-- Region 3's body is region 1's, on its own windows. -/
theorem out3_4_eq : @out3_4 = @out1_4 := rfl

/-- The printed index maps of region 3, decided once over its grid: the two data windows and the scale's window move with
    the result's block along the rows, the bias's window stays at the result's (only) lane block, and the result's block
    at point `t` is row block `t`, lane block `0`. -/
theorem idx_facts3 : ∀ t : Fin cfg3.N,
    win3_0.index t (0 : Fin 2) = win3_4.index t (0 : Fin 2) ∧ win3_0.index t (1 : Fin 2) = win3_4.index t (1 : Fin 2)
    ∧ win3_1.index t (0 : Fin 2) = win3_4.index t (0 : Fin 2) ∧ win3_1.index t (1 : Fin 2) = win3_4.index t (1 : Fin 2)
    ∧ win3_2.index t (0 : Fin 2) = win3_4.index t (0 : Fin 2)
    ∧ win3_3.index t (1 : Fin 2) = win3_4.index t (1 : Fin 2)
    ∧ win3_4.index t (0 : Fin 2) = t.val ∧ win3_4.index t (1 : Fin 2) = 0 :=
  (by decide +kernel : ∀ t : Fin grid3.N, _)

/-- What point `t` writes back is block `t` of the whole-array epilogue of the arrays as the region finds them. -/
theorem flushed3_eq (c : Dev nD) (t : Fin cfg3.N) :
    (dat3 (F := Ideal) V c).flushed 4 t = ((cfg3.win 4).blk t).view.read (Elt Ideal)
      (combineRef (F := Ideal) (V c main_v65) (V c main_v53) (V c main_v67) (V c main_v66)) := by
  show (cfg3.win 4).cut (grid3.coords t) ((dat3 V c).after 4 t) = _
  rw [after3_4]
  obtain ⟨e00, e01, e10, e11, e20, e31, e40, e41⟩ := idx_facts3 t
  funext j
  have hj0 : (j 0).val < 5000 := (j 0).isLt
  have hj1 : (j 1).val < 128 := (j 1).isLt
  -- the scale's and the bias's block indices under `j`: its row in the one column, its lane in the one row
  let y2 : S5000x1.Idx := ix2 (⟨(j 0).val, hj0⟩ : Fin 5000) (0 : Fin 1)
  let y3 : S1x128.Idx := ix2 (0 : Fin 1) (⟨(j 1).val, hj1⟩ : Fin 128)
  show out3_4 (iblk3 V c 0 t) (iblk3 V c 1 t) (iblk3 V c 2 t) (iblk3 V c 3 t) ((cfg3.win 4).xinj (grid3.coords t) j)
    = combineRef (F := Ideal) (V c main_v65) (V c main_v53) (V c main_v67) (V c main_v66) (((cfg3.win 4).blk t).view.emb j)
  have c2 : ((((cfg3.win 2).blk t).view.emb y2) 0).val = ((((cfg3.win 4).blk t).view.emb j) 0).val := by
    show win3_2.index t (0 : Fin 2) * 5000 + 1 * (j 0).val = win3_4.index t (0 : Fin 2) * 5000 + 1 * (j 0).val
    omega
  have c3 : ((((cfg3.win 3).blk t).view.emb y3) 1).val = ((((cfg3.win 4).blk t).view.emb j) 1).val := by
    show win3_3.index t (1 : Fin 2) * 128 + 1 * (j 1).val = win3_4.index t (1 : Fin 2) * 128 + 1 * (j 1).val
    omega
  have h0 : ((cfg3.win 0).blk t).view.emb ((cfg3.win 4).xinj (grid3.coords t) j) = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb ((cfg3.win 4).xinj (grid3.coords t) j) = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have t0 : iblk3 V c 0 t ((cfg3.win 4).xinj (grid3.coords t) j) = V c main_v65 (((cfg3.win 4).blk t).view.emb j) :=
    congrArg (V c main_v65) h0
  have t1 : iblk3 V c 1 t ((cfg3.win 4).xinj (grid3.coords t) j) = V c main_v53 (((cfg3.win 4).blk t).view.emb j) :=
    congrArg (V c main_v53) h1
  rw [out3_4_eq, out1_4_at _ _ _ _ _ y2 y3 rfl rfl,
    combineRef_at _ _ _ _ _ (((cfg3.win 2).blk t).view.emb y2) (((cfg3.win 3).blk t).view.emb y3) c2 c3, t0, t1]
  rfl

/-- An index of the result array is in point `t`'s block iff each coordinate is in the block's range on its axis. -/
theorem mem_blk3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v68).slice (win3_4.rect t)).set ↔ _
  rw [View.set_slice_whole, Rect.mem_set_unit]
  exact Iff.rfl

/-- The ten row blocks tile the result array: row `r` is in the block of point `r / 5000`. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, e40, e41⟩ := idx_facts3 t
  refine ⟨t, flush3_4 t, ?_⟩
  rw [mem_blk3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

/-- THE RESULT ARRAY region 3 leaves is the whole-array epilogue of its four entry arrays. -/
theorem arrAt3 (c : Dev nD) :
    (dat3 (F := Ideal) V c).arrAt 4 cfg3.N
      = combineRef (F := Ideal) (V c main_v65) (V c main_v53) (V c main_v67) (V c main_v66) :=
  (dat3 V c).arrAt_eq_of_cover 4 _ (fun t _ => flushed3_eq V c t) cover3

end Region3

/-! ## Region 5 -/

section Region5
variable (V : (c : Dev nD) → (b : Ref sig .tc) → Buf (Elt Ideal) ((c : Thread nD τ).loc b))

/-- Region 5's body is region 1's, on its own windows. -/
theorem out5_4_eq : @out5_4 = @out1_4 := rfl

/-- The printed index maps of region 5, decided once over its grid: the two data windows and the scale's window move with
    the result's block along the rows, the bias's window stays at the result's (only) lane block, and the result's block
    at point `t` is row block `t`, lane block `0`. -/
theorem idx_facts5 : ∀ t : Fin cfg5.N,
    win5_0.index t (0 : Fin 2) = win5_4.index t (0 : Fin 2) ∧ win5_0.index t (1 : Fin 2) = win5_4.index t (1 : Fin 2)
    ∧ win5_1.index t (0 : Fin 2) = win5_4.index t (0 : Fin 2) ∧ win5_1.index t (1 : Fin 2) = win5_4.index t (1 : Fin 2)
    ∧ win5_2.index t (0 : Fin 2) = win5_4.index t (0 : Fin 2)
    ∧ win5_3.index t (1 : Fin 2) = win5_4.index t (1 : Fin 2)
    ∧ win5_4.index t (0 : Fin 2) = t.val ∧ win5_4.index t (1 : Fin 2) = 0 :=
  (by decide +kernel : ∀ t : Fin grid5.N, _)

/-- What point `t` writes back is block `t` of the whole-array epilogue of the arrays as the region finds them. -/
theorem flushed5_eq (c : Dev nD) (t : Fin cfg5.N) :
    (dat5 (F := Ideal) V c).flushed 4 t = ((cfg5.win 4).blk t).view.read (Elt Ideal)
      (combineRef (F := Ideal) (V c main_v85) (V c main_v73) (V c main_v87) (V c main_v86)) := by
  show (cfg5.win 4).cut (grid5.coords t) ((dat5 V c).after 4 t) = _
  rw [after5_4]
  obtain ⟨e00, e01, e10, e11, e20, e31, e40, e41⟩ := idx_facts5 t
  funext j
  have hj0 : (j 0).val < 5000 := (j 0).isLt
  have hj1 : (j 1).val < 128 := (j 1).isLt
  -- the scale's and the bias's block indices under `j`: its row in the one column, its lane in the one row
  let y2 : S5000x1.Idx := ix2 (⟨(j 0).val, hj0⟩ : Fin 5000) (0 : Fin 1)
  let y3 : S1x128.Idx := ix2 (0 : Fin 1) (⟨(j 1).val, hj1⟩ : Fin 128)
  show out5_4 (iblk5 V c 0 t) (iblk5 V c 1 t) (iblk5 V c 2 t) (iblk5 V c 3 t) ((cfg5.win 4).xinj (grid5.coords t) j)
    = combineRef (F := Ideal) (V c main_v85) (V c main_v73) (V c main_v87) (V c main_v86) (((cfg5.win 4).blk t).view.emb j)
  have c2 : ((((cfg5.win 2).blk t).view.emb y2) 0).val = ((((cfg5.win 4).blk t).view.emb j) 0).val := by
    show win5_2.index t (0 : Fin 2) * 5000 + 1 * (j 0).val = win5_4.index t (0 : Fin 2) * 5000 + 1 * (j 0).val
    omega
  have c3 : ((((cfg5.win 3).blk t).view.emb y3) 1).val = ((((cfg5.win 4).blk t).view.emb j) 1).val := by
    show win5_3.index t (1 : Fin 2) * 128 + 1 * (j 1).val = win5_4.index t (1 : Fin 2) * 128 + 1 * (j 1).val
    omega
  have h0 : ((cfg5.win 0).blk t).view.emb ((cfg5.win 4).xinj (grid5.coords t) j) = ((cfg5.win 4).blk t).view.emb j := by
    funext a; apply Fin.ext
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 128 + 1 * (j 1).val = win5_4.index t (1 : Fin 2) * 128 + 1 * (j 1).val; omega
  have h1 : ((cfg5.win 1).blk t).view.emb ((cfg5.win 4).xinj (grid5.coords t) j) = ((cfg5.win 4).blk t).view.emb j := by
    funext a; apply Fin.ext
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 128 + 1 * (j 1).val = win5_4.index t (1 : Fin 2) * 128 + 1 * (j 1).val; omega
  have t0 : iblk5 V c 0 t ((cfg5.win 4).xinj (grid5.coords t) j) = V c main_v85 (((cfg5.win 4).blk t).view.emb j) :=
    congrArg (V c main_v85) h0
  have t1 : iblk5 V c 1 t ((cfg5.win 4).xinj (grid5.coords t) j) = V c main_v73 (((cfg5.win 4).blk t).view.emb j) :=
    congrArg (V c main_v73) h1
  rw [out5_4_eq, out1_4_at _ _ _ _ _ y2 y3 rfl rfl,
    combineRef_at _ _ _ _ _ (((cfg5.win 2).blk t).view.emb y2) (((cfg5.win 3).blk t).view.emb y3) c2 c3, t0, t1]
  rfl

/-- An index of the result array is in point `t`'s block iff each coordinate is in the block's range on its axis. -/
theorem mem_blk5 (t : Fin cfg5.N) (i : S50000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v88).slice (win5_4.rect t)).set ↔ _
  rw [View.set_slice_whole, Rect.mem_set_unit]
  exact Iff.rfl

/-- The ten row blocks tile the result array: row `r` is in the block of point `r / 5000`. -/
theorem cover5 (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by omega⟩, rfl⟩
  obtain ⟨-, -, -, -, -, -, e40, e41⟩ := idx_facts5 t
  refine ⟨t, flush5_4 t, ?_⟩
  rw [mem_blk5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 128 ≤ (i 1).val ∧ (i 1).val < win5_4.index t (1 : Fin 2) * 128 + 128
    omega

/-- THE RESULT ARRAY region 5 leaves is the whole-array epilogue of its four entry arrays. -/
theorem arrAt5 (c : Dev nD) :
    (dat5 (F := Ideal) V c).arrAt 4 cfg5.N
      = combineRef (F := Ideal) (V c main_v85) (V c main_v73) (V c main_v87) (V c main_v86) :=
  (dat5 V c).arrAt_eq_of_cover 4 _ (fun t _ => flushed5_eq V c t) cover5

end Region5

/-! ## Region 7 -/

section Region7
variable (V : (c : Dev nD) → (b : Ref sig .tc) → Buf (Elt Ideal) ((c : Thread nD τ).loc b))

/-- Region 7's body is region 1's, on its own windows. -/
theorem out7_4_eq : @out7_4 = @out1_4 := rfl

/-- The printed index maps of region 7, decided once over its grid: the two data windows and the scale's window move with
    the result's block along the rows, the bias's window stays at the result's (only) lane block, and the result's block
    at point `t` is row block `t`, lane block `0`. -/
theorem idx_facts7 : ∀ t : Fin cfg7.N,
    win7_0.index t (0 : Fin 2) = win7_4.index t (0 : Fin 2) ∧ win7_0.index t (1 : Fin 2) = win7_4.index t (1 : Fin 2)
    ∧ win7_1.index t (0 : Fin 2) = win7_4.index t (0 : Fin 2) ∧ win7_1.index t (1 : Fin 2) = win7_4.index t (1 : Fin 2)
    ∧ win7_2.index t (0 : Fin 2) = win7_4.index t (0 : Fin 2)
    ∧ win7_3.index t (1 : Fin 2) = win7_4.index t (1 : Fin 2)
    ∧ win7_4.index t (0 : Fin 2) = t.val ∧ win7_4.index t (1 : Fin 2) = 0 :=
  (by decide +kernel : ∀ t : Fin grid7.N, _)

/-- What point `t` writes back is block `t` of the whole-array epilogue of the arrays as the region finds them. -/
theorem flushed7_eq (c : Dev nD) (t : Fin cfg7.N) :
    (dat7 (F := Ideal) V c).flushed 4 t = ((cfg7.win 4).blk t).view.read (Elt Ideal)
      (combineRef (F := Ideal) (V c main_v105) (V c main_v93) (V c main_v107) (V c main_v106)) := by
  show (cfg7.win 4).cut (grid7.coords t) ((dat7 V c).after 4 t) = _
  rw [after7_4]
  obtain ⟨e00, e01, e10, e11, e20, e31, e40, e41⟩ := idx_facts7 t
  funext j
  have hj0 : (j 0).val < 5000 := (j 0).isLt
  have hj1 : (j 1).val < 128 := (j 1).isLt
  -- the scale's and the bias's block indices under `j`: its row in the one column, its lane in the one row
  let y2 : S5000x1.Idx := ix2 (⟨(j 0).val, hj0⟩ : Fin 5000) (0 : Fin 1)
  let y3 : S1x128.Idx := ix2 (0 : Fin 1) (⟨(j 1).val, hj1⟩ : Fin 128)
  show out7_4 (iblk7 V c 0 t) (iblk7 V c 1 t) (iblk7 V c 2 t) (iblk7 V c 3 t) ((cfg7.win 4).xinj (grid7.coords t) j)
    = combineRef (F := Ideal) (V c main_v105) (V c main_v93) (V c main_v107) (V c main_v106) (((cfg7.win 4).blk t).view.emb j)
  have c2 : ((((cfg7.win 2).blk t).view.emb y2) 0).val = ((((cfg7.win 4).blk t).view.emb j) 0).val := by
    show win7_2.index t (0 : Fin 2) * 5000 + 1 * (j 0).val = win7_4.index t (0 : Fin 2) * 5000 + 1 * (j 0).val
    omega
  have c3 : ((((cfg7.win 3).blk t).view.emb y3) 1).val = ((((cfg7.win 4).blk t).view.emb j) 1).val := by
    show win7_3.index t (1 : Fin 2) * 128 + 1 * (j 1).val = win7_4.index t (1 : Fin 2) * 128 + 1 * (j 1).val
    omega
  have h0 : ((cfg7.win 0).blk t).view.emb ((cfg7.win 4).xinj (grid7.coords t) j) = ((cfg7.win 4).blk t).view.emb j := by
    funext a; apply Fin.ext
    match a with
    | ⟨0, _⟩ => show win7_0.index t (0 : Fin 2) * 5000 + 1 * (j 0).val = win7_4.index t (0 : Fin 2) * 5000 + 1 * (j 0).val; omega
    | ⟨1, _⟩ => show win7_0.index t (1 : Fin 2) * 128 + 1 * (j 1).val = win7_4.index t (1 : Fin 2) * 128 + 1 * (j 1).val; omega
  have h1 : ((cfg7.win 1).blk t).view.emb ((cfg7.win 4).xinj (grid7.coords t) j) = ((cfg7.win 4).blk t).view.emb j := by
    funext a; apply Fin.ext
    match a with
    | ⟨0, _⟩ => show win7_1.index t (0 : Fin 2) * 5000 + 1 * (j 0).val = win7_4.index t (0 : Fin 2) * 5000 + 1 * (j 0).val; omega
    | ⟨1, _⟩ => show win7_1.index t (1 : Fin 2) * 128 + 1 * (j 1).val = win7_4.index t (1 : Fin 2) * 128 + 1 * (j 1).val; omega
  have t0 : iblk7 V c 0 t ((cfg7.win 4).xinj (grid7.coords t) j) = V c main_v105 (((cfg7.win 4).blk t).view.emb j) :=
    congrArg (V c main_v105) h0
  have t1 : iblk7 V c 1 t ((cfg7.win 4).xinj (grid7.coords t) j) = V c main_v93 (((cfg7.win 4).blk t).view.emb j) :=
    congrArg (V c main_v93) h1
  rw [out7_4_eq, out1_4_at _ _ _ _ _ y2 y3 rfl rfl,
    combineRef_at _ _ _ _ _ (((cfg7.win 2).blk t).view.emb y2) (((cfg7.win 3).blk t).view.emb y3) c2 c3, t0, t1]
  rfl

/-- An index of the result array is in point `t`'s block iff each coordinate is in the block's range on its axis. -/
theorem mem_blk7 (t : Fin cfg7.N) (i : S50000x128.Idx) :
    i ∈ ((cfg7.win 4).blk t).view.set ↔ ∀ a : Fin 2, win7_4.index t a * S5000x128.size a ≤ (i a).val
      ∧ (i a).val < win7_4.index t a * S5000x128.size a + S5000x128.size a := by
  show i ∈ ((View.whole main_v108).slice (win7_4.rect t)).set ↔ _
  rw [View.set_slice_whole, Rect.mem_set_unit]
  exact Iff.rfl

/-- The ten row blocks tile the result array: row `r` is in the block of point `r / 5000`. -/
theorem cover7 (i : S50000x128.Idx) :
    ∃ t : Fin cfg7.N, (cfg7.win 4).flush t = true ∧ i ∈ ((cfg7.win 4).blk t).view.set := by
  have hi0 : (i 0).val < 50000 := (i 0).isLt
  have hi1 : (i 1).val < 128 := (i 1).isLt
  have hN : cfg7.N = 10 := N_7
  obtain ⟨t, ht⟩ : ∃ t : Fin cfg7.N, t.val = (i 0).val / 5000 := ⟨⟨(i 0).val / 5000, by omega⟩, rfl⟩
  obtain ⟨-, -, -, -, -, -, e40, e41⟩ := idx_facts7 t
  refine ⟨t, flush7_4 t, ?_⟩
  rw [mem_blk7]
  intro a
  match a with
  | ⟨0, _⟩ =>
    show win7_4.index t (0 : Fin 2) * 5000 ≤ (i 0).val ∧ (i 0).val < win7_4.index t (0 : Fin 2) * 5000 + 5000
    omega
  | ⟨1, _⟩ =>
    show win7_4.index t (1 : Fin 2) * 128 ≤ (i 1).val ∧ (i 1).val < win7_4.index t (1 : Fin 2) * 128 + 128
    omega

/-- THE RESULT ARRAY region 7 leaves is the whole-array epilogue of its four entry arrays. -/
theorem arrAt7 (c : Dev nD) :
    (dat7 (F := Ideal) V c).arrAt 4 cfg7.N
      = combineRef (F := Ideal) (V c main_v105) (V c main_v93) (V c main_v107) (V c main_v106) :=
  (dat7 V c).arrAt_eq_of_cover 4 _ (fun t _ => flushed7_eq V c t) cover7

end Region7

end Cert.KernelIdeal.Combine

end
-- ==== Proof.Chain0.lean ====
/-
  The first graph-convolution layer of the idealized kernel, read boundary by boundary. At each boundary of @main
  (after a stretch of host operations, after a pipelined region) every buffer the later program reads holds the value
  that the corresponding stage of the reference computes from the same argument arrays: the edge endpoints, the
  symmetric edge weights, the inverse degrees, the layer's weight and bias, the product h·W, the aggregated messages,
  and the layer's output max (agg + h·W·(1/deg) + b, 0).
-/
import proofs.«132292_j27307402068686_1_alg».proof.Proof.Gen.KernelIdeal.Frame
import proofs.«132292_j27307402068686_1_alg».proof.Proof.Gen.ReferenceIdeal.Read
import proofs.«132292_j27307402068686_1_alg».proof.Proof.Spec
import proofs.«132292_j27307402068686_1_alg».proof.Proof.LibReshape
import proofs.«132292_j27307402068686_1_alg».proof.Proof.Linear
import proofs.«132292_j27307402068686_1_alg».proof.Proof.Combine
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.ReferenceIdeal.Read Cert.Spec

variable (m : (ℓ : Loc nD τ sig) → Buf (Elt Ideal) ℓ) (ρ : Dev nD → PrngReg) (c : Dev nD)

/-- A buffer that no operation of a stretch of host operations writes keeps its contents across the stretch. -/
macro "keep_host" : tactic => `(tactic| exact StableHlo.after_of_forall_not_mem (b := _) _ _ (List.forall_iff_forall_mem.mp (by
  simp only [hostOps0, hostOps1, hostOps2, hostOps3, hostOps4, hostOps5, hostOps6, hostOps7, hostOps8,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## After the first stretch of host operations -/

theorem W1_main_arg0 : W1 m ρ c (Proc.devRef .tc main_arg0) = (m ((c.tc : Thread nD τ).loc main_arg0)) := by
  calc W1 m ρ c (Proc.devRef .tc main_arg0)
    _ = W0 m ρ c (Proc.devRef .tc main_arg0) := by keep_host
    _ = (m ((c.tc : Thread nD τ).loc main_arg0)) := rfl
theorem W1_main_v1 : W1 m ρ c (Proc.devRef .tc main_v1) = val_main_v1 (F := Ideal) (m ((c.tc : Thread nD τ).loc main_arg1)) := by
  show StableHlo.after hostOps0 (W0 m ρ c) (Proc.devRef .tc main_v1) = _
  dsimp only [hostOps0]
  after_results_simp
  rfl

theorem W1_main_v3 : W1 m ρ c (Proc.devRef .tc main_v3) = val_main_v3 (F := Ideal) (m ((c.tc : Thread nD τ).loc main_arg1)) := by
  show StableHlo.after hostOps0 (W0 m ρ c) (Proc.devRef .tc main_v3) = _
  dsimp only [hostOps0]
  after_results_simp
  rfl

set_option maxHeartbeats 2000000 in
theorem W1_main_v26 : W1 m ρ c (Proc.devRef .tc main_v26) = val_main_v26 (F := Ideal) (m ((c.tc : Thread nD τ).loc main_arg1)) := by
  show StableHlo.after hostOps0 (W0 m ρ c) (Proc.devRef .tc main_v26) = _
  dsimp only [hostOps0]
  after_results_simp
  rfl

theorem W1_main_v28 : W1 m ρ c (Proc.devRef .tc main_v28) = val_main_v28 (F := Ideal) (m ((c.tc : Thread nD τ).loc main_arg1)) := by
  show StableHlo.after hostOps0 (W0 m ρ c) (Proc.devRef .tc main_v28) = _
  dsimp only [hostOps0]
  after_results_simp
  rfl

theorem W1_main_v30 : W1 m ρ c (Proc.devRef .tc main_v30) = val_main_v31 (F := Ideal) (m ((c.tc : Thread nD τ).loc main_arg3)) := by
  show StableHlo.after hostOps0 (W0 m ρ c) (Proc.devRef .tc main_v30) = _
  dsimp only [hostOps0]
  after_results_simp
  rfl

theorem W1_main_v32 : W1 m ρ c (Proc.devRef .tc main_v32) = val_main_v33 (F := Ideal) (m ((c.tc : Thread nD τ).loc main_arg4)) := by
  show StableHlo.after hostOps0 (W0 m ρ c) (Proc.devRef .tc main_v32) = _
  dsimp only [hostOps0]
  after_results_simp
  rfl

/-! ## After the first linear region: h·W -/

theorem W2_main_v33 : W2 m ρ c (Proc.devRef .tc main_v33) = val_main_v34 (F := Ideal) (m ((c.tc : Thread nD τ).loc main_arg0)) (m ((c.tc : Thread nD τ).loc main_arg3)) := by
  refine (W2_arr m ρ c 2).trans ?_
  rw [Cert.KernelIdeal.Linear.arrAt0 (V1 m ρ) c]
  show linRef (F := Ideal) (W1 m ρ c (Proc.devRef .tc main_arg0)) (W1 m ρ c (Proc.devRef .tc main_v30)) = _
  rw [W1_main_arg0 m ρ c, W1_main_v30 m ρ c]
  rfl
theorem W2_main_v1 : W2 m ρ c (Proc.devRef .tc main_v1) = val_main_v1 (F := Ideal) (m ((c.tc : Thread nD τ).loc main_arg1)) :=
  (calc W2 m ρ c (Proc.devRef .tc main_v1)
    _ = W1 m ρ c (Proc.devRef .tc main_v1) := W2_of_ne m ρ c main_v1 (by decide)
  ).trans (W1_main_v1 m ρ c)

theorem W2_main_v3 : W2 m ρ c (Proc.devRef .tc main_v3) = val_main_v3 (F := Ideal) (m ((c.tc : Thread nD τ).loc main_arg1)) :=
  (calc W2 m ρ c (Proc.devRef .tc main_v3)
    _ = W1 m ρ c (Proc.devRef .tc main_v3) := W2_of_ne m ρ c main_v3 (by decide)
  ).trans (W1_main_v3 m ρ c)

theorem W2_main_v26 : W2 m ρ c (Proc.devRef .tc main_v26) = val_main_v26 (F := Ideal) (m ((c.tc : Thread nD τ).loc main_arg1)) :=
  (calc W2 m ρ c (Proc.devRef .tc main_v26)
    _ = W1 m ρ c (Proc.devRef .tc main_v26) := W2_of_ne m ρ c main_v26 (by decide)
  ).trans (W1_main_v26 m ρ c)

theorem W2_main_v28 : W2 m ρ c (Proc.devRef .tc main_v28) = val_main_v28 (F := Ideal) (m ((c.tc : Thread nD τ).loc main_arg1)) :=
  (calc W2 m ρ c (Proc.devRef .tc main_v28)
    _ = W1 m ρ c (Proc.devRef .tc main_v28) := W2_of_ne m ρ c main_v28 (by decide)
  ).trans (W1_main_v28 m ρ c)

theorem W2_main_v32 : W2 m ρ c (Proc.devRef .tc main_v32) = val_main_v33 (F := Ideal) (m ((c.tc : Thread nD τ).loc main_arg4)) :=
  (calc W2 m ρ c (Proc.devRef .tc main_v32)
    _ = W1 m ρ c (Proc.devRef .tc main_v32) := W2_of_ne m ρ c main_v32 (by decide)
  ).trans (W1_main_v32 m ρ c)

/-! ## After the message passing on the host: the aggregated messages, the bias as a row, the scale as a column -/

set_option maxHeartbeats 2000000 in
theorem W3_main_v45 : W3 m ρ c (Proc.devRef .tc main_v45) = val_main_v46 (F := Ideal) (m ((c.tc : Thread nD τ).loc main_arg0)) (m ((c.tc : Thread nD τ).loc main_arg1)) (m ((c.tc : Thread nD τ).loc main_arg3)) := by
  show StableHlo.after hostOps1 (W2 m ρ c) (Proc.devRef .tc main_v45) = _
  dsimp only [hostOps1]
  after_results_simp
  rw [W2_main_v1 m ρ c, W2_main_v3 m ρ c, W2_main_v26 m ρ c, W2_main_v33 m ρ c]
  rfl

theorem W3_main_v46 : W3 m ρ c (Proc.devRef .tc main_v46) = broadcastInDim S1x128 ![1] Cert.ReferenceIdeal.Facts₀.bcast_S128_S1x128_1 (val_main_v33 (F := Ideal) (m ((c.tc : Thread nD τ).loc main_arg4))) := by
  show StableHlo.after hostOps1 (W2 m ρ c) (Proc.devRef .tc main_v46) = _
  dsimp only [hostOps1]
  after_results_simp
  rw [W2_main_v32 m ρ c]
  exact Cert.Glue.row_eq 128 _ _ _
theorem W3_main_v47 : W3 m ρ c (Proc.devRef .tc main_v47) = broadcastInDim S50000x1 ![0] Cert.ReferenceIdeal.Facts₀.bcast_S50000_S50000x1_0 (val_main_v28 (F := Ideal) (m ((c.tc : Thread nD τ).loc main_arg1))) := by
  show StableHlo.after hostOps1 (W2 m ρ c) (Proc.devRef .tc main_v47) = _
  dsimp only [hostOps1]
  after_results_simp
  rw [W2_main_v28 m ρ c]
  exact Cert.Glue.col_eq 50000 _ _ _
theorem W3_main_v33 : W3 m ρ c (Proc.devRef .tc main_v33) = val_main_v34 (F := Ideal) (m ((c.tc : Thread nD τ).loc main_arg0)) (m ((c.tc : Thread nD τ).loc main_arg3)) :=
  (calc W3 m ρ c (Proc.devRef .tc main_v33)
    _ = W2 m ρ c (Proc.devRef .tc main_v33) := by keep_host
  ).trans (W2_main_v33 m ρ c)

/-! ## After the first combine region: the layer's output -/

theorem W4_main_v48 : W4 m ρ c (Proc.devRef .tc main_v48) = val_main_v53 (F := Ideal) (m ((c.tc : Thread nD τ).loc main_arg0)) (m ((c.tc : Thread nD τ).loc main_arg1)) (m ((c.tc : Thread nD τ).loc main_arg3)) (m ((c.tc : Thread nD τ).loc main_arg4)) := by
  refine (W4_arr m ρ c 4).trans ?_
  rw [Cert.KernelIdeal.Combine.arrAt1 (V3 m ρ) c]
  show combineRef (F := Ideal) (W3 m ρ c (Proc.devRef .tc main_v45)) (W3 m ρ c (Proc.devRef .tc main_v33)) (W3 m ρ c (Proc.devRef .tc main_v47)) (W3 m ρ c (Proc.devRef .tc main_v46)) = _
  rw [W3_main_v45 m ρ c, W3_main_v33 m ρ c, W3_main_v47 m ρ c, W3_main_v46 m ρ c]
  rfl

end Cert.KernelIdeal.Chain

end
-- ==== Proof.Chain1.lean ====
/-
  The second graph-convolution layer of the idealized kernel, read boundary by boundary: the layer's weight and bias
  sliced out of the stacked arguments, the product h·W of the previous layer's output, the messages gathered along the
  edges, weighted and summed into their targets, and the layer's output max (agg + h·W·(1/deg) + b, 0) — each buffer
  holds the value the corresponding stage of the reference computes from the same argument arrays. The edge endpoints,
  the edge weights and the inverse degrees are carried unchanged from the first stretch of host operations.
-/
import proofs.«132292_j27307402068686_1_alg».proof.Proof.Gen.KernelIdeal.Frame
import proofs.«132292_j27307402068686_1_alg».proof.Proof.Gen.ReferenceIdeal.Read
import proofs.«132292_j27307402068686_1_alg».proof.Proof.Spec
import proofs.«132292_j27307402068686_1_alg».proof.Proof.LibReshape
import proofs.«132292_j27307402068686_1_alg».proof.Proof.Linear
import proofs.«132292_j27307402068686_1_alg».proof.Proof.Combine
import proofs.«132292_j27307402068686_1_alg».proof.Proof.Chain0
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.ReferenceIdeal.Read Cert.Spec

variable (m : (ℓ : Loc nD τ sig) → Buf (Elt Ideal) ℓ) (ρ : Dev nD → PrngReg) (c : Dev nD)

/-! ## The layer's weight and bias -/

theorem W4_main_arg3 : W4 m ρ c (Proc.devRef .tc main_arg3) = (m ((c.tc : Thread nD τ).loc main_arg3)) := by
  calc W4 m ρ c (Proc.devRef .tc main_arg3)
    _ = W3 m ρ c (Proc.devRef .tc main_arg3) := W4_of_ne m ρ c main_arg3 (by decide)
    _ = W2 m ρ c (Proc.devRef .tc main_arg3) := by keep_host
    _ = W1 m ρ c (Proc.devRef .tc main_arg3) := W2_of_ne m ρ c main_arg3 (by decide)
    _ = W0 m ρ c (Proc.devRef .tc main_arg3) := by keep_host
    _ = (m ((c.tc : Thread nD τ).loc main_arg3)) := rfl

theorem W4_main_arg4 : W4 m ρ c (Proc.devRef .tc main_arg4) = (m ((c.tc : Thread nD τ).loc main_arg4)) := by
  calc W4 m ρ c (Proc.devRef .tc main_arg4)
    _ = W3 m ρ c (Proc.devRef .tc main_arg4) := W4_of_ne m ρ c main_arg4 (by decide)
    _ = W2 m ρ c (Proc.devRef .tc main_arg4) := by keep_host
    _ = W1 m ρ c (Proc.devRef .tc main_arg4) := W2_of_ne m ρ c main_arg4 (by decide)
    _ = W0 m ρ c (Proc.devRef .tc main_arg4) := by keep_host
    _ = (m ((c.tc : Thread nD τ).loc main_arg4)) := rfl

set_option maxHeartbeats 2000000 in
theorem W5_main_v50 : W5 m ρ c (Proc.devRef .tc main_v50) = val_main_v55 (F := Ideal) (m ((c.tc : Thread nD τ).loc main_arg3)) := by
  show StableHlo.after hostOps2 (W4 m ρ c) (Proc.devRef .tc main_v50) = _
  dsimp only [hostOps2]
  after_results_simp
  rw [W4_main_arg3 m ρ c]
  rfl

set_option maxHeartbeats 2000000 in
theorem W5_main_v52 : W5 m ρ c (Proc.devRef .tc main_v52) = val_main_v57 (F := Ideal) (m ((c.tc : Thread nD τ).loc main_arg4)) := by
  show StableHlo.after hostOps2 (W4 m ρ c) (Proc.devRef .tc main_v52) = _
  dsimp only [hostOps2]
  after_results_simp
  rw [W4_main_arg4 m ρ c]
  rfl

theorem W5_main_v48 : W5 m ρ c (Proc.devRef .tc main_v48) = val_main_v53 (F := Ideal) (m ((c.tc : Thread nD τ).loc main_arg0)) (m ((c.tc : Thread nD τ).loc main_arg1)) (m ((c.tc : Thread nD τ).loc main_arg3)) (m ((c.tc : Thread nD τ).loc main_arg4)) :=
  (calc W5 m ρ c (Proc.devRef .tc main_v48)
    _ = W4 m ρ c (Proc.devRef .tc main_v48) := by keep_host
  ).trans (W4_main_v48 m ρ c)

/-! ## After the linear region: h·W -/

theorem W6_main_v53 : W6 m ρ c (Proc.devRef .tc main_v53) = val_main_v58 (F := Ideal) (m ((c.tc : Thread nD τ).loc main_arg0)) (m ((c.tc : Thread nD τ).loc main_arg1)) (m ((c.tc : Thread nD τ).loc main_arg3)) (m ((c.tc : Thread nD τ).loc main_arg4)) := by
  refine (W6_arr m ρ c 2).trans ?_
  rw [Cert.KernelIdeal.Linear.arrAt2 (V5 m ρ) c]
  show linRef (F := Ideal) (W5 m ρ c (Proc.devRef .tc main_v48)) (W5 m ρ c (Proc.devRef .tc main_v50)) = _
  rw [W5_main_v48 m ρ c, W5_main_v50 m ρ c]
  rfl
theorem W6_main_v1 : W6 m ρ c (Proc.devRef .tc main_v1) = val_main_v1 (F := Ideal) (m ((c.tc : Thread nD τ).loc main_arg1)) :=
  (calc W6 m ρ c (Proc.devRef .tc main_v1)
    _ = W5 m ρ c (Proc.devRef .tc main_v1) := W6_of_ne m ρ c main_v1 (by decide)
    _ = W4 m ρ c (Proc.devRef .tc main_v1) := by keep_host
    _ = W3 m ρ c (Proc.devRef .tc main_v1) := W4_of_ne m ρ c main_v1 (by decide)
    _ = W2 m ρ c (Proc.devRef .tc main_v1) := by keep_host
  ).trans (W2_main_v1 m ρ c)

theorem W6_main_v3 : W6 m ρ c (Proc.devRef .tc main_v3) = val_main_v3 (F := Ideal) (m ((c.tc : Thread nD τ).loc main_arg1)) :=
  (calc W6 m ρ c (Proc.devRef .tc main_v3)
    _ = W5 m ρ c (Proc.devRef .tc main_v3) := W6_of_ne m ρ c main_v3 (by decide)
    _ = W4 m ρ c (Proc.devRef .tc main_v3) := by keep_host
    _ = W3 m ρ c (Proc.devRef .tc main_v3) := W4_of_ne m ρ c main_v3 (by decide)
    _ = W2 m ρ c (Proc.devRef .tc main_v3) := by keep_host
  ).trans (W2_main_v3 m ρ c)

theorem W6_main_v26 : W6 m ρ c (Proc.devRef .tc main_v26) = val_main_v26 (F := Ideal) (m ((c.tc : Thread nD τ).loc main_arg1)) :=
  (calc W6 m ρ c (Proc.devRef .tc main_v26)
    _ = W5 m ρ c (Proc.devRef .tc main_v26) := W6_of_ne m ρ c main_v26 (by decide)
    _ = W4 m ρ c (Proc.devRef .tc main_v26) := by keep_host
    _ = W3 m ρ c (Proc.devRef .tc main_v26) := W4_of_ne m ρ c main_v26 (by decide)
    _ = W2 m ρ c (Proc.devRef .tc main_v26) := by keep_host
  ).trans (W2_main_v26 m ρ c)

theorem W6_main_v28 : W6 m ρ c (Proc.devRef .tc main_v28) = val_main_v28 (F := Ideal) (m ((c.tc : Thread nD τ).loc main_arg1)) :=
  (calc W6 m ρ c (Proc.devRef .tc main_v28)
    _ = W5 m ρ c (Proc.devRef .tc main_v28) := W6_of_ne m ρ c main_v28 (by decide)
    _ = W4 m ρ c (Proc.devRef .tc main_v28) := by keep_host
    _ = W3 m ρ c (Proc.devRef .tc main_v28) := W4_of_ne m ρ c main_v28 (by decide)
    _ = W2 m ρ c (Proc.devRef .tc main_v28) := by keep_host
  ).trans (W2_main_v28 m ρ c)

theorem W6_main_v52 : W6 m ρ c (Proc.devRef .tc main_v52) = val_main_v57 (F := Ideal) (m ((c.tc : Thread nD τ).loc main_arg4)) :=
  (calc W6 m ρ c (Proc.devRef .tc main_v52)
    _ = W5 m ρ c (Proc.devRef .tc main_v52) := W6_of_ne m ρ c main_v52 (by decide)
  ).trans (W5_main_v52 m ρ c)

/-! ## After the message passing on the host -/

set_option maxHeartbeats 2000000 in
theorem W7_main_v65 : W7 m ρ c (Proc.devRef .tc main_v65) = val_main_v70 (F := Ideal) (m ((c.tc : Thread nD τ).loc main_arg0)) (m ((c.tc : Thread nD τ).loc main_arg1)) (m ((c.tc : Thread nD τ).loc main_arg3)) (m ((c.tc : Thread nD τ).loc main_arg4)) := by
  show StableHlo.after hostOps3 (W6 m ρ c) (Proc.devRef .tc main_v65) = _
  dsimp only [hostOps3]
  after_results_simp
  rw [W6_main_v1 m ρ c, W6_main_v3 m ρ c, W6_main_v26 m ρ c, W6_main_v53 m ρ c]
  rfl

theorem W7_main_v66 : W7 m ρ c (Proc.devRef .tc main_v66) = broadcastInDim S1x128 ![1] Cert.ReferenceIdeal.Facts₀.bcast_S128_S1x128_1 (val_main_v57 (F := Ideal) (m ((c.tc : Thread nD τ).loc main_arg4))) := by
  show StableHlo.after hostOps3 (W6 m ρ c) (Proc.devRef .tc main_v66) = _
  dsimp only [hostOps3]
  after_results_simp
  rw [W6_main_v52 m ρ c]
  exact Cert.Glue.row_eq 128 _ _ _
theorem W7_main_v67 : W7 m ρ c (Proc.devRef .tc main_v67) = broadcastInDim S50000x1 ![0] Cert.ReferenceIdeal.Facts₀.bcast_S50000_S50000x1_0 (val_main_v28 (F := Ideal) (m ((c.tc : Thread nD τ).loc main_arg1))) := by
  show StableHlo.after hostOps3 (W6 m ρ c) (Proc.devRef .tc main_v67) = _
  dsimp only [hostOps3]
  after_results_simp
  rw [W6_main_v28 m ρ c]
  exact Cert.Glue.col_eq 50000 _ _ _
theorem W7_main_v53 : W7 m ρ c (Proc.devRef .tc main_v53) = val_main_v58 (F := Ideal) (m ((c.tc : Thread nD τ).loc main_arg0)) (m ((c.tc : Thread nD τ).loc main_arg1)) (m ((c.tc : Thread nD τ).loc main_arg3)) (m ((c.tc : Thread nD τ).loc main_arg4)) :=
  (calc W7 m ρ c (Proc.devRef .tc main_v53)
    _ = W6 m ρ c (Proc.devRef .tc main_v53) := by keep_host
  ).trans (W6_main_v53 m ρ c)

/-! ## After the combine region: the layer's output -/

theorem W8_main_v68 : W8 m ρ c (Proc.devRef .tc main_v68) = val_main_v77 (F := Ideal) (m ((c.tc : Thread nD τ).loc main_arg0)) (m ((c.tc : Thread nD τ).loc main_arg1)) (m ((c.tc : Thread nD τ).loc main_arg3)) (m ((c.tc : Thread nD τ).loc main_arg4)) := by
  refine (W8_arr m ρ c 4).trans ?_
  rw [Cert.KernelIdeal.Combine.arrAt3 (V7 m ρ) c]
  show combineRef (F := Ideal) (W7 m ρ c (Proc.devRef .tc main_v65)) (W7 m ρ c (Proc.devRef .tc main_v53)) (W7 m ρ c (Proc.devRef .tc main_v67)) (W7 m ρ c (Proc.devRef .tc main_v66)) = _
  rw [W7_main_v65 m ρ c, W7_main_v53 m ρ c, W7_main_v67 m ρ c, W7_main_v66 m ρ c]
  rfl

end Cert.KernelIdeal.Chain

end
-- ==== Proof.Chain2.lean ====
/-
  The third graph-convolution layer of the idealized kernel, read boundary by boundary: the layer's weight and bias
  sliced out of the stacked arguments, the product h·W of the previous layer's output, the messages gathered along the
  edges, weighted and summed into their targets, and the layer's output max (agg + h·W·(1/deg) + b, 0) — each buffer
  holds the value the corresponding stage of the reference computes from the same argument arrays. The edge endpoints,
  the edge weights and the inverse degrees are carried unchanged from the first stretch of host operations.
-/
import proofs.«132292_j27307402068686_1_alg».proof.Proof.Gen.KernelIdeal.Frame
import proofs.«132292_j27307402068686_1_alg».proof.Proof.Gen.ReferenceIdeal.Read
import proofs.«132292_j27307402068686_1_alg».proof.Proof.Spec
import proofs.«132292_j27307402068686_1_alg».proof.Proof.LibReshape
import proofs.«132292_j27307402068686_1_alg».proof.Proof.Linear
import proofs.«132292_j27307402068686_1_alg».proof.Proof.Combine
import proofs.«132292_j27307402068686_1_alg».proof.Proof.Chain1
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.ReferenceIdeal.Read Cert.Spec

variable (m : (ℓ : Loc nD τ sig) → Buf (Elt Ideal) ℓ) (ρ : Dev nD → PrngReg) (c : Dev nD)

/-! ## The layer's weight and bias -/

theorem W8_main_arg3 : W8 m ρ c (Proc.devRef .tc main_arg3) = (m ((c.tc : Thread nD τ).loc main_arg3)) := by
  calc W8 m ρ c (Proc.devRef .tc main_arg3)
    _ = W7 m ρ c (Proc.devRef .tc main_arg3) := W8_of_ne m ρ c main_arg3 (by decide)
    _ = W6 m ρ c (Proc.devRef .tc main_arg3) := by keep_host
    _ = W5 m ρ c (Proc.devRef .tc main_arg3) := W6_of_ne m ρ c main_arg3 (by decide)
    _ = W4 m ρ c (Proc.devRef .tc main_arg3) := by keep_host
    _ = W3 m ρ c (Proc.devRef .tc main_arg3) := W4_of_ne m ρ c main_arg3 (by decide)
    _ = W2 m ρ c (Proc.devRef .tc main_arg3) := by keep_host
    _ = W1 m ρ c (Proc.devRef .tc main_arg3) := W2_of_ne m ρ c main_arg3 (by decide)
    _ = W0 m ρ c (Proc.devRef .tc main_arg3) := by keep_host
    _ = (m ((c.tc : Thread nD τ).loc main_arg3)) := rfl

theorem W8_main_arg4 : W8 m ρ c (Proc.devRef .tc main_arg4) = (m ((c.tc : Thread nD τ).loc main_arg4)) := by
  calc W8 m ρ c (Proc.devRef .tc main_arg4)
    _ = W7 m ρ c (Proc.devRef .tc main_arg4) := W8_of_ne m ρ c main_arg4 (by decide)
    _ = W6 m ρ c (Proc.devRef .tc main_arg4) := by keep_host
    _ = W5 m ρ c (Proc.devRef .tc main_arg4) := W6_of_ne m ρ c main_arg4 (by decide)
    _ = W4 m ρ c (Proc.devRef .tc main_arg4) := by keep_host
    _ = W3 m ρ c (Proc.devRef .tc main_arg4) := W4_of_ne m ρ c main_arg4 (by decide)
    _ = W2 m ρ c (Proc.devRef .tc main_arg4) := by keep_host
    _ = W1 m ρ c (Proc.devRef .tc main_arg4) := W2_of_ne m ρ c main_arg4 (by decide)
    _ = W0 m ρ c (Proc.devRef .tc main_arg4) := by keep_host
    _ = (m ((c.tc : Thread nD τ).loc main_arg4)) := rfl

set_option maxHeartbeats 2000000 in
theorem W9_main_v70 : W9 m ρ c (Proc.devRef .tc main_v70) = val_main_v79 (F := Ideal) (m ((c.tc : Thread nD τ).loc main_arg3)) := by
  show StableHlo.after hostOps4 (W8 m ρ c) (Proc.devRef .tc main_v70) = _
  dsimp only [hostOps4]
  after_results_simp
  rw [W8_main_arg3 m ρ c]
  rfl

set_option maxHeartbeats 2000000 in
theorem W9_main_v72 : W9 m ρ c (Proc.devRef .tc main_v72) = val_main_v81 (F := Ideal) (m ((c.tc : Thread nD τ).loc main_arg4)) := by
  show StableHlo.after hostOps4 (W8 m ρ c) (Proc.devRef .tc main_v72) = _
  dsimp only [hostOps4]
  after_results_simp
  rw [W8_main_arg4 m ρ c]
  rfl

theorem W9_main_v68 : W9 m ρ c (Proc.devRef .tc main_v68) = val_main_v77 (F := Ideal) (m ((c.tc : Thread nD τ).loc main_arg0)) (m ((c.tc : Thread nD τ).loc main_arg1)) (m ((c.tc : Thread nD τ).loc main_arg3)) (m ((c.tc : Thread nD τ).loc main_arg4)) :=
  (calc W9 m ρ c (Proc.devRef .tc main_v68)
    _ = W8 m ρ c (Proc.devRef .tc main_v68) := by keep_host
  ).trans (W8_main_v68 m ρ c)

/-! ## After the linear region: h·W -/

theorem W10_main_v73 : W10 m ρ c (Proc.devRef .tc main_v73) = val_main_v82 (F := Ideal) (m ((c.tc : Thread nD τ).loc main_arg0)) (m ((c.tc : Thread nD τ).loc main_arg1)) (m ((c.tc : Thread nD τ).loc main_arg3)) (m ((c.tc : Thread nD τ).loc main_arg4)) := by
  refine (W10_arr m ρ c 2).trans ?_
  rw [Cert.KernelIdeal.Linear.arrAt4 (V9 m ρ) c]
  show linRef (F := Ideal) (W9 m ρ c (Proc.devRef .tc main_v68)) (W9 m ρ c (Proc.devRef .tc main_v70)) = _
  rw [W9_main_v68 m ρ c, W9_main_v70 m ρ c]
  rfl
theorem W10_main_v1 : W10 m ρ c (Proc.devRef .tc main_v1) = val_main_v1 (F := Ideal) (m ((c.tc : Thread nD τ).loc main_arg1)) :=
  (calc W10 m ρ c (Proc.devRef .tc main_v1)
    _ = W9 m ρ c (Proc.devRef .tc main_v1) := W10_of_ne m ρ c main_v1 (by decide)
    _ = W8 m ρ c (Proc.devRef .tc main_v1) := by keep_host
    _ = W7 m ρ c (Proc.devRef .tc main_v1) := W8_of_ne m ρ c main_v1 (by decide)
    _ = W6 m ρ c (Proc.devRef .tc main_v1) := by keep_host
  ).trans (W6_main_v1 m ρ c)

theorem W10_main_v3 : W10 m ρ c (Proc.devRef .tc main_v3) = val_main_v3 (F := Ideal) (m ((c.tc : Thread nD τ).loc main_arg1)) :=
  (calc W10 m ρ c (Proc.devRef .tc main_v3)
    _ = W9 m ρ c (Proc.devRef .tc main_v3) := W10_of_ne m ρ c main_v3 (by decide)
    _ = W8 m ρ c (Proc.devRef .tc main_v3) := by keep_host
    _ = W7 m ρ c (Proc.devRef .tc main_v3) := W8_of_ne m ρ c main_v3 (by decide)
    _ = W6 m ρ c (Proc.devRef .tc main_v3) := by keep_host
  ).trans (W6_main_v3 m ρ c)

theorem W10_main_v26 : W10 m ρ c (Proc.devRef .tc main_v26) = val_main_v26 (F := Ideal) (m ((c.tc : Thread nD τ).loc main_arg1)) :=
  (calc W10 m ρ c (Proc.devRef .tc main_v26)
    _ = W9 m ρ c (Proc.devRef .tc main_v26) := W10_of_ne m ρ c main_v26 (by decide)
    _ = W8 m ρ c (Proc.devRef .tc main_v26) := by keep_host
    _ = W7 m ρ c (Proc.devRef .tc main_v26) := W8_of_ne m ρ c main_v26 (by decide)
    _ = W6 m ρ c (Proc.devRef .tc main_v26) := by keep_host
  ).trans (W6_main_v26 m ρ c)

theorem W10_main_v28 : W10 m ρ c (Proc.devRef .tc main_v28) = val_main_v28 (F := Ideal) (m ((c.tc : Thread nD τ).loc main_arg1)) :=
  (calc W10 m ρ c (Proc.devRef .tc main_v28)
    _ = W9 m ρ c (Proc.devRef .tc main_v28) := W10_of_ne m ρ c main_v28 (by decide)
    _ = W8 m ρ c (Proc.devRef .tc main_v28) := by keep_host
    _ = W7 m ρ c (Proc.devRef .tc main_v28) := W8_of_ne m ρ c main_v28 (by decide)
    _ = W6 m ρ c (Proc.devRef .tc main_v28) := by keep_host
  ).trans (W6_main_v28 m ρ c)

theorem W10_main_v72 : W10 m ρ c (Proc.devRef .tc main_v72) = val_main_v81 (F := Ideal) (m ((c.tc : Thread nD τ).loc main_arg4)) :=
  (calc W10 m ρ c (Proc.devRef .tc main_v72)
    _ = W9 m ρ c (Proc.devRef .tc main_v72) := W10_of_ne m ρ c main_v72 (by decide)
  ).trans (W9_main_v72 m ρ c)

/-! ## After the message passing on the host -/

set_option maxHeartbeats 2000000 in
theorem W11_main_v85 : W11 m ρ c (Proc.devRef .tc main_v85) = val_main_v94 (F := Ideal) (m ((c.tc : Thread nD τ).loc main_arg0)) (m ((c.tc : Thread nD τ).loc main_arg1)) (m ((c.tc : Thread nD τ).loc main_arg3)) (m ((c.tc : Thread nD τ).loc main_arg4)) := by
  show StableHlo.after hostOps5 (W10 m ρ c) (Proc.devRef .tc main_v85) = _
  dsimp only [hostOps5]
  after_results_simp
  rw [W10_main_v1 m ρ c, W10_main_v3 m ρ c, W10_main_v26 m ρ c, W10_main_v73 m ρ c]
  rfl

theorem W11_main_v86 : W11 m ρ c (Proc.devRef .tc main_v86) = broadcastInDim S1x128 ![1] Cert.ReferenceIdeal.Facts₀.bcast_S128_S1x128_1 (val_main_v81 (F := Ideal) (m ((c.tc : Thread nD τ).loc main_arg4))) := by
  show StableHlo.after hostOps5 (W10 m ρ c) (Proc.devRef .tc main_v86) = _
  dsimp only [hostOps5]
  after_results_simp
  rw [W10_main_v72 m ρ c]
  exact Cert.Glue.row_eq 128 _ _ _
theorem W11_main_v87 : W11 m ρ c (Proc.devRef .tc main_v87) = broadcastInDim S50000x1 ![0] Cert.ReferenceIdeal.Facts₀.bcast_S50000_S50000x1_0 (val_main_v28 (F := Ideal) (m ((c.tc : Thread nD τ).loc main_arg1))) := by
  show StableHlo.after hostOps5 (W10 m ρ c) (Proc.devRef .tc main_v87) = _
  dsimp only [hostOps5]
  after_results_simp
  rw [W10_main_v28 m ρ c]
  exact Cert.Glue.col_eq 50000 _ _ _
theorem W11_main_v73 : W11 m ρ c (Proc.devRef .tc main_v73) = val_main_v82 (F := Ideal) (m ((c.tc : Thread nD τ).loc main_arg0)) (m ((c.tc : Thread nD τ).loc main_arg1)) (m ((c.tc : Thread nD τ).loc main_arg3)) (m ((c.tc : Thread nD τ).loc main_arg4)) :=
  (calc W11 m ρ c (Proc.devRef .tc main_v73)
    _ = W10 m ρ c (Proc.devRef .tc main_v73) := by keep_host
  ).trans (W10_main_v73 m ρ c)

/-! ## After the combine region: the layer's output -/

theorem W12_main_v88 : W12 m ρ c (Proc.devRef .tc main_v88) = val_main_v101 (F := Ideal) (m ((c.tc : Thread nD τ).loc main_arg0)) (m ((c.tc : Thread nD τ).loc main_arg1)) (m ((c.tc : Thread nD τ).loc main_arg3)) (m ((c.tc : Thread nD τ).loc main_arg4)) := by
  refine (W12_arr m ρ c 4).trans ?_
  rw [Cert.KernelIdeal.Combine.arrAt5 (V11 m ρ) c]
  show combineRef (F := Ideal) (W11 m ρ c (Proc.devRef .tc main_v85)) (W11 m ρ c (Proc.devRef .tc main_v73)) (W11 m ρ c (Proc.devRef .tc main_v87)) (W11 m ρ c (Proc.devRef .tc main_v86)) = _
  rw [W11_main_v85 m ρ c, W11_main_v73 m ρ c, W11_main_v87 m ρ c, W11_main_v86 m ρ c]
  rfl

end Cert.KernelIdeal.Chain

end
-- ==== Proof.Chain3.lean ====
/-
  The fourth graph-convolution layer of the idealized kernel, read boundary by boundary: the layer's weight and bias
  sliced out of the stacked arguments, the product h·W of the previous layer's output, the messages gathered along the
  edges, weighted and summed into their targets, and the layer's output max (agg + h·W·(1/deg) + b, 0) — each buffer
  holds the value the corresponding stage of the reference computes from the same argument arrays. The edge endpoints,
  the edge weights and the inverse degrees are carried unchanged from the first stretch of host operations.
-/
import proofs.«132292_j27307402068686_1_alg».proof.Proof.Gen.KernelIdeal.Frame
import proofs.«132292_j27307402068686_1_alg».proof.Proof.Gen.ReferenceIdeal.Read
import proofs.«132292_j27307402068686_1_alg».proof.Proof.Spec
import proofs.«132292_j27307402068686_1_alg».proof.Proof.LibReshape
import proofs.«132292_j27307402068686_1_alg».proof.Proof.Linear
import proofs.«132292_j27307402068686_1_alg».proof.Proof.Combine
import proofs.«132292_j27307402068686_1_alg».proof.Proof.Chain2
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.ReferenceIdeal.Read Cert.Spec

variable (m : (ℓ : Loc nD τ sig) → Buf (Elt Ideal) ℓ) (ρ : Dev nD → PrngReg) (c : Dev nD)

/-! ## The layer's weight and bias -/

theorem W12_main_arg3 : W12 m ρ c (Proc.devRef .tc main_arg3) = (m ((c.tc : Thread nD τ).loc main_arg3)) := by
  calc W12 m ρ c (Proc.devRef .tc main_arg3)
    _ = W11 m ρ c (Proc.devRef .tc main_arg3) := W12_of_ne m ρ c main_arg3 (by decide)
    _ = W10 m ρ c (Proc.devRef .tc main_arg3) := by keep_host
    _ = W9 m ρ c (Proc.devRef .tc main_arg3) := W10_of_ne m ρ c main_arg3 (by decide)
    _ = W8 m ρ c (Proc.devRef .tc main_arg3) := by keep_host
    _ = W7 m ρ c (Proc.devRef .tc main_arg3) := W8_of_ne m ρ c main_arg3 (by decide)
    _ = W6 m ρ c (Proc.devRef .tc main_arg3) := by keep_host
    _ = W5 m ρ c (Proc.devRef .tc main_arg3) := W6_of_ne m ρ c main_arg3 (by decide)
    _ = W4 m ρ c (Proc.devRef .tc main_arg3) := by keep_host
    _ = W3 m ρ c (Proc.devRef .tc main_arg3) := W4_of_ne m ρ c main_arg3 (by decide)
    _ = W2 m ρ c (Proc.devRef .tc main_arg3) := by keep_host
    _ = W1 m ρ c (Proc.devRef .tc main_arg3) := W2_of_ne m ρ c main_arg3 (by decide)
    _ = W0 m ρ c (Proc.devRef .tc main_arg3) := by keep_host
    _ = (m ((c.tc : Thread nD τ).loc main_arg3)) := rfl

theorem W12_main_arg4 : W12 m ρ c (Proc.devRef .tc main_arg4) = (m ((c.tc : Thread nD τ).loc main_arg4)) := by
  calc W12 m ρ c (Proc.devRef .tc main_arg4)
    _ = W11 m ρ c (Proc.devRef .tc main_arg4) := W12_of_ne m ρ c main_arg4 (by decide)
    _ = W10 m ρ c (Proc.devRef .tc main_arg4) := by keep_host
    _ = W9 m ρ c (Proc.devRef .tc main_arg4) := W10_of_ne m ρ c main_arg4 (by decide)
    _ = W8 m ρ c (Proc.devRef .tc main_arg4) := by keep_host
    _ = W7 m ρ c (Proc.devRef .tc main_arg4) := W8_of_ne m ρ c main_arg4 (by decide)
    _ = W6 m ρ c (Proc.devRef .tc main_arg4) := by keep_host
    _ = W5 m ρ c (Proc.devRef .tc main_arg4) := W6_of_ne m ρ c main_arg4 (by decide)
    _ = W4 m ρ c (Proc.devRef .tc main_arg4) := by keep_host
    _ = W3 m ρ c (Proc.devRef .tc main_arg4) := W4_of_ne m ρ c main_arg4 (by decide)
    _ = W2 m ρ c (Proc.devRef .tc main_arg4) := by keep_host
    _ = W1 m ρ c (Proc.devRef .tc main_arg4) := W2_of_ne m ρ c main_arg4 (by decide)
    _ = W0 m ρ c (Proc.devRef .tc main_arg4) := by keep_host
    _ = (m ((c.tc : Thread nD τ).loc main_arg4)) := rfl

set_option maxHeartbeats 2000000 in
theorem W13_main_v90 : W13 m ρ c (Proc.devRef .tc main_v90) = val_main_v103 (F := Ideal) (m ((c.tc : Thread nD τ).loc main_arg3)) := by
  show StableHlo.after hostOps6 (W12 m ρ c) (Proc.devRef .tc main_v90) = _
  dsimp only [hostOps6]
  after_results_simp
  rw [W12_main_arg3 m ρ c]
  rfl

set_option maxHeartbeats 2000000 in
theorem W13_main_v92 : W13 m ρ c (Proc.devRef .tc main_v92) = val_main_v105 (F := Ideal) (m ((c.tc : Thread nD τ).loc main_arg4)) := by
  show StableHlo.after hostOps6 (W12 m ρ c) (Proc.devRef .tc main_v92) = _
  dsimp only [hostOps6]
  after_results_simp
  rw [W12_main_arg4 m ρ c]
  rfl

theorem W13_main_v88 : W13 m ρ c (Proc.devRef .tc main_v88) = val_main_v101 (F := Ideal) (m ((c.tc : Thread nD τ).loc main_arg0)) (m ((c.tc : Thread nD τ).loc main_arg1)) (m ((c.tc : Thread nD τ).loc main_arg3)) (m ((c.tc : Thread nD τ).loc main_arg4)) :=
  (calc W13 m ρ c (Proc.devRef .tc main_v88)
    _ = W12 m ρ c (Proc.devRef .tc main_v88) := by keep_host
  ).trans (W12_main_v88 m ρ c)

/-! ## After the linear region: h·W -/

theorem W14_main_v93 : W14 m ρ c (Proc.devRef .tc main_v93) = val_main_v106 (F := Ideal) (m ((c.tc : Thread nD τ).loc main_arg0)) (m ((c.tc : Thread nD τ).loc main_arg1)) (m ((c.tc : Thread nD τ).loc main_arg3)) (m ((c.tc : Thread nD τ).loc main_arg4)) := by
  refine (W14_arr m ρ c 2).trans ?_
  rw [Cert.KernelIdeal.Linear.arrAt6 (V13 m ρ) c]
  show linRef (F := Ideal) (W13 m ρ c (Proc.devRef .tc main_v88)) (W13 m ρ c (Proc.devRef .tc main_v90)) = _
  rw [W13_main_v88 m ρ c, W13_main_v90 m ρ c]
  rfl
theorem W14_main_v1 : W14 m ρ c (Proc.devRef .tc main_v1) = val_main_v1 (F := Ideal) (m ((c.tc : Thread nD τ).loc main_arg1)) :=
  (calc W14 m ρ c (Proc.devRef .tc main_v1)
    _ = W13 m ρ c (Proc.devRef .tc main_v1) := W14_of_ne m ρ c main_v1 (by decide)
    _ = W12 m ρ c (Proc.devRef .tc main_v1) := by keep_host
    _ = W11 m ρ c (Proc.devRef .tc main_v1) := W12_of_ne m ρ c main_v1 (by decide)
    _ = W10 m ρ c (Proc.devRef .tc main_v1) := by keep_host
  ).trans (W10_main_v1 m ρ c)

theorem W14_main_v3 : W14 m ρ c (Proc.devRef .tc main_v3) = val_main_v3 (F := Ideal) (m ((c.tc : Thread nD τ).loc main_arg1)) :=
  (calc W14 m ρ c (Proc.devRef .tc main_v3)
    _ = W13 m ρ c (Proc.devRef .tc main_v3) := W14_of_ne m ρ c main_v3 (by decide)
    _ = W12 m ρ c (Proc.devRef .tc main_v3) := by keep_host
    _ = W11 m ρ c (Proc.devRef .tc main_v3) := W12_of_ne m ρ c main_v3 (by decide)
    _ = W10 m ρ c (Proc.devRef .tc main_v3) := by keep_host
  ).trans (W10_main_v3 m ρ c)

theorem W14_main_v26 : W14 m ρ c (Proc.devRef .tc main_v26) = val_main_v26 (F := Ideal) (m ((c.tc : Thread nD τ).loc main_arg1)) :=
  (calc W14 m ρ c (Proc.devRef .tc main_v26)
    _ = W13 m ρ c (Proc.devRef .tc main_v26) := W14_of_ne m ρ c main_v26 (by decide)
    _ = W12 m ρ c (Proc.devRef .tc main_v26) := by keep_host
    _ = W11 m ρ c (Proc.devRef .tc main_v26) := W12_of_ne m ρ c main_v26 (by decide)
    _ = W10 m ρ c (Proc.devRef .tc main_v26) := by keep_host
  ).trans (W10_main_v26 m ρ c)

theorem W14_main_v28 : W14 m ρ c (Proc.devRef .tc main_v28) = val_main_v28 (F := Ideal) (m ((c.tc : Thread nD τ).loc main_arg1)) :=
  (calc W14 m ρ c (Proc.devRef .tc main_v28)
    _ = W13 m ρ c (Proc.devRef .tc main_v28) := W14_of_ne m ρ c main_v28 (by decide)
    _ = W12 m ρ c (Proc.devRef .tc main_v28) := by keep_host
    _ = W11 m ρ c (Proc.devRef .tc main_v28) := W12_of_ne m ρ c main_v28 (by decide)
    _ = W10 m ρ c (Proc.devRef .tc main_v28) := by keep_host
  ).trans (W10_main_v28 m ρ c)

theorem W14_main_v92 : W14 m ρ c (Proc.devRef .tc main_v92) = val_main_v105 (F := Ideal) (m ((c.tc : Thread nD τ).loc main_arg4)) :=
  (calc W14 m ρ c (Proc.devRef .tc main_v92)
    _ = W13 m ρ c (Proc.devRef .tc main_v92) := W14_of_ne m ρ c main_v92 (by decide)
  ).trans (W13_main_v92 m ρ c)

/-! ## After the message passing on the host -/

set_option maxHeartbeats 2000000 in
theorem W15_main_v105 : W15 m ρ c (Proc.devRef .tc main_v105) = val_main_v118 (F := Ideal) (m ((c.tc : Thread nD τ).loc main_arg0)) (m ((c.tc : Thread nD τ).loc main_arg1)) (m ((c.tc : Thread nD τ).loc main_arg3)) (m ((c.tc : Thread nD τ).loc main_arg4)) := by
  show StableHlo.after hostOps7 (W14 m ρ c) (Proc.devRef .tc main_v105) = _
  dsimp only [hostOps7]
  after_results_simp
  rw [W14_main_v1 m ρ c, W14_main_v3 m ρ c, W14_main_v26 m ρ c, W14_main_v93 m ρ c]
  rfl

theorem W15_main_v106 : W15 m ρ c (Proc.devRef .tc main_v106) = broadcastInDim S1x128 ![1] Cert.ReferenceIdeal.Facts₀.bcast_S128_S1x128_1 (val_main_v105 (F := Ideal) (m ((c.tc : Thread nD τ).loc main_arg4))) := by
  show StableHlo.after hostOps7 (W14 m ρ c) (Proc.devRef .tc main_v106) = _
  dsimp only [hostOps7]
  after_results_simp
  rw [W14_main_v92 m ρ c]
  exact Cert.Glue.row_eq 128 _ _ _
theorem W15_main_v107 : W15 m ρ c (Proc.devRef .tc main_v107) = broadcastInDim S50000x1 ![0] Cert.ReferenceIdeal.Facts₀.bcast_S50000_S50000x1_0 (val_main_v28 (F := Ideal) (m ((c.tc : Thread nD τ).loc main_arg1))) := by
  show StableHlo.after hostOps7 (W14 m ρ c) (Proc.devRef .tc main_v107) = _
  dsimp only [hostOps7]
  after_results_simp
  rw [W14_main_v28 m ρ c]
  exact Cert.Glue.col_eq 50000 _ _ _
theorem W15_main_v93 : W15 m ρ c (Proc.devRef .tc main_v93) = val_main_v106 (F := Ideal) (m ((c.tc : Thread nD τ).loc main_arg0)) (m ((c.tc : Thread nD τ).loc main_arg1)) (m ((c.tc : Thread nD τ).loc main_arg3)) (m ((c.tc : Thread nD τ).loc main_arg4)) :=
  (calc W15 m ρ c (Proc.devRef .tc main_v93)
    _ = W14 m ρ c (Proc.devRef .tc main_v93) := by keep_host
  ).trans (W14_main_v93 m ρ c)

/-! ## After the combine region: the layer's output -/

theorem W16_main_v108 : W16 m ρ c (Proc.devRef .tc main_v108) = val_main_v125 (F := Ideal) (m ((c.tc : Thread nD τ).loc main_arg0)) (m ((c.tc : Thread nD τ).loc main_arg1)) (m ((c.tc : Thread nD τ).loc main_arg3)) (m ((c.tc : Thread nD τ).loc main_arg4)) := by
  refine (W16_arr m ρ c 4).trans ?_
  rw [Cert.KernelIdeal.Combine.arrAt7 (V15 m ρ) c]
  show combineRef (F := Ideal) (W15 m ρ c (Proc.devRef .tc main_v105)) (W15 m ρ c (Proc.devRef .tc main_v93)) (W15 m ρ c (Proc.devRef .tc main_v107)) (W15 m ρ c (Proc.devRef .tc main_v106)) = _
  rw [W15_main_v105 m ρ c, W15_main_v93 m ρ c, W15_main_v107 m ρ c, W15_main_v106 m ρ c]
  rfl

end Cert.KernelIdeal.Chain

end
-- ==== Proof.Chain4.lean ====
/-
  The pooling and the head of the idealized kernel. After the fourth layer the node features are summed into their
  graphs on the host, the three biases are viewed as rows, and the last region applies the three affine maps; the
  result buffer then holds what the reference's last stage computes from the same argument arrays.
-/
import proofs.«132292_j27307402068686_1_alg».proof.Proof.Gen.KernelIdeal.Frame
import proofs.«132292_j27307402068686_1_alg».proof.Proof.Gen.ReferenceIdeal.Read
import proofs.«132292_j27307402068686_1_alg».proof.Proof.Spec
import proofs.«132292_j27307402068686_1_alg».proof.Proof.LibReshape
import proofs.«132292_j27307402068686_1_alg».proof.Proof.Mlp
import proofs.«132292_j27307402068686_1_alg».proof.Proof.Chain3
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.ReferenceIdeal.Read Cert.Spec

variable (m : (ℓ : Loc nD τ sig) → Buf (Elt Ideal) ℓ) (ρ : Dev nD → PrngReg) (c : Dev nD)

/-! ## The pooled features and the biases as rows -/

theorem W16_main_arg2 : W16 m ρ c (Proc.devRef .tc main_arg2) = (m ((c.tc : Thread nD τ).loc main_arg2)) := by
  calc W16 m ρ c (Proc.devRef .tc main_arg2)
    _ = W15 m ρ c (Proc.devRef .tc main_arg2) := W16_of_ne m ρ c main_arg2 (by decide)
    _ = W14 m ρ c (Proc.devRef .tc main_arg2) := by keep_host
    _ = W13 m ρ c (Proc.devRef .tc main_arg2) := W14_of_ne m ρ c main_arg2 (by decide)
    _ = W12 m ρ c (Proc.devRef .tc main_arg2) := by keep_host
    _ = W11 m ρ c (Proc.devRef .tc main_arg2) := W12_of_ne m ρ c main_arg2 (by decide)
    _ = W10 m ρ c (Proc.devRef .tc main_arg2) := by keep_host
    _ = W9 m ρ c (Proc.devRef .tc main_arg2) := W10_of_ne m ρ c main_arg2 (by decide)
    _ = W8 m ρ c (Proc.devRef .tc main_arg2) := by keep_host
    _ = W7 m ρ c (Proc.devRef .tc main_arg2) := W8_of_ne m ρ c main_arg2 (by decide)
    _ = W6 m ρ c (Proc.devRef .tc main_arg2) := by keep_host
    _ = W5 m ρ c (Proc.devRef .tc main_arg2) := W6_of_ne m ρ c main_arg2 (by decide)
    _ = W4 m ρ c (Proc.devRef .tc main_arg2) := by keep_host
    _ = W3 m ρ c (Proc.devRef .tc main_arg2) := W4_of_ne m ρ c main_arg2 (by decide)
    _ = W2 m ρ c (Proc.devRef .tc main_arg2) := by keep_host
    _ = W1 m ρ c (Proc.devRef .tc main_arg2) := W2_of_ne m ρ c main_arg2 (by decide)
    _ = W0 m ρ c (Proc.devRef .tc main_arg2) := by keep_host
    _ = (m ((c.tc : Thread nD τ).loc main_arg2)) := rfl

theorem W16_main_arg6 : W16 m ρ c (Proc.devRef .tc main_arg6) = (m ((c.tc : Thread nD τ).loc main_arg6)) := by
  calc W16 m ρ c (Proc.devRef .tc main_arg6)
    _ = W15 m ρ c (Proc.devRef .tc main_arg6) := W16_of_ne m ρ c main_arg6 (by decide)
    _ = W14 m ρ c (Proc.devRef .tc main_arg6) := by keep_host
    _ = W13 m ρ c (Proc.devRef .tc main_arg6) := W14_of_ne m ρ c main_arg6 (by decide)
    _ = W12 m ρ c (Proc.devRef .tc main_arg6) := by keep_host
    _ = W11 m ρ c (Proc.devRef .tc main_arg6) := W12_of_ne m ρ c main_arg6 (by decide)
    _ = W10 m ρ c (Proc.devRef .tc main_arg6) := by keep_host
    _ = W9 m ρ c (Proc.devRef .tc main_arg6) := W10_of_ne m ρ c main_arg6 (by decide)
    _ = W8 m ρ c (Proc.devRef .tc main_arg6) := by keep_host
    _ = W7 m ρ c (Proc.devRef .tc main_arg6) := W8_of_ne m ρ c main_arg6 (by decide)
    _ = W6 m ρ c (Proc.devRef .tc main_arg6) := by keep_host
    _ = W5 m ρ c (Proc.devRef .tc main_arg6) := W6_of_ne m ρ c main_arg6 (by decide)
    _ = W4 m ρ c (Proc.devRef .tc main_arg6) := by keep_host
    _ = W3 m ρ c (Proc.devRef .tc main_arg6) := W4_of_ne m ρ c main_arg6 (by decide)
    _ = W2 m ρ c (Proc.devRef .tc main_arg6) := by keep_host
    _ = W1 m ρ c (Proc.devRef .tc main_arg6) := W2_of_ne m ρ c main_arg6 (by decide)
    _ = W0 m ρ c (Proc.devRef .tc main_arg6) := by keep_host
    _ = (m ((c.tc : Thread nD τ).loc main_arg6)) := rfl

theorem W16_main_arg8 : W16 m ρ c (Proc.devRef .tc main_arg8) = (m ((c.tc : Thread nD τ).loc main_arg8)) := by
  calc W16 m ρ c (Proc.devRef .tc main_arg8)
    _ = W15 m ρ c (Proc.devRef .tc main_arg8) := W16_of_ne m ρ c main_arg8 (by decide)
    _ = W14 m ρ c (Proc.devRef .tc main_arg8) := by keep_host
    _ = W13 m ρ c (Proc.devRef .tc main_arg8) := W14_of_ne m ρ c main_arg8 (by decide)
    _ = W12 m ρ c (Proc.devRef .tc main_arg8) := by keep_host
    _ = W11 m ρ c (Proc.devRef .tc main_arg8) := W12_of_ne m ρ c main_arg8 (by decide)
    _ = W10 m ρ c (Proc.devRef .tc main_arg8) := by keep_host
    _ = W9 m ρ c (Proc.devRef .tc main_arg8) := W10_of_ne m ρ c main_arg8 (by decide)
    _ = W8 m ρ c (Proc.devRef .tc main_arg8) := by keep_host
    _ = W7 m ρ c (Proc.devRef .tc main_arg8) := W8_of_ne m ρ c main_arg8 (by decide)
    _ = W6 m ρ c (Proc.devRef .tc main_arg8) := by keep_host
    _ = W5 m ρ c (Proc.devRef .tc main_arg8) := W6_of_ne m ρ c main_arg8 (by decide)
    _ = W4 m ρ c (Proc.devRef .tc main_arg8) := by keep_host
    _ = W3 m ρ c (Proc.devRef .tc main_arg8) := W4_of_ne m ρ c main_arg8 (by decide)
    _ = W2 m ρ c (Proc.devRef .tc main_arg8) := by keep_host
    _ = W1 m ρ c (Proc.devRef .tc main_arg8) := W2_of_ne m ρ c main_arg8 (by decide)
    _ = W0 m ρ c (Proc.devRef .tc main_arg8) := by keep_host
    _ = (m ((c.tc : Thread nD τ).loc main_arg8)) := rfl

theorem W16_main_arg10 : W16 m ρ c (Proc.devRef .tc main_arg10) = (m ((c.tc : Thread nD τ).loc main_arg10)) := by
  calc W16 m ρ c (Proc.devRef .tc main_arg10)
    _ = W15 m ρ c (Proc.devRef .tc main_arg10) := W16_of_ne m ρ c main_arg10 (by decide)
    _ = W14 m ρ c (Proc.devRef .tc main_arg10) := by keep_host
    _ = W13 m ρ c (Proc.devRef .tc main_arg10) := W14_of_ne m ρ c main_arg10 (by decide)
    _ = W12 m ρ c (Proc.devRef .tc main_arg10) := by keep_host
    _ = W11 m ρ c (Proc.devRef .tc main_arg10) := W12_of_ne m ρ c main_arg10 (by decide)
    _ = W10 m ρ c (Proc.devRef .tc main_arg10) := by keep_host
    _ = W9 m ρ c (Proc.devRef .tc main_arg10) := W10_of_ne m ρ c main_arg10 (by decide)
    _ = W8 m ρ c (Proc.devRef .tc main_arg10) := by keep_host
    _ = W7 m ρ c (Proc.devRef .tc main_arg10) := W8_of_ne m ρ c main_arg10 (by decide)
    _ = W6 m ρ c (Proc.devRef .tc main_arg10) := by keep_host
    _ = W5 m ρ c (Proc.devRef .tc main_arg10) := W6_of_ne m ρ c main_arg10 (by decide)
    _ = W4 m ρ c (Proc.devRef .tc main_arg10) := by keep_host
    _ = W3 m ρ c (Proc.devRef .tc main_arg10) := W4_of_ne m ρ c main_arg10 (by decide)
    _ = W2 m ρ c (Proc.devRef .tc main_arg10) := by keep_host
    _ = W1 m ρ c (Proc.devRef .tc main_arg10) := W2_of_ne m ρ c main_arg10 (by decide)
    _ = W0 m ρ c (Proc.devRef .tc main_arg10) := by keep_host
    _ = (m ((c.tc : Thread nD τ).loc main_arg10)) := rfl

set_option maxHeartbeats 2000000 in
theorem W17_main_v111 : W17 m ρ c (Proc.devRef .tc main_v111) = val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps8 (W16 m ρ c) (Proc.devRef .tc main_v111) = _
  dsimp only [hostOps8]
  after_results_simp
  rw [W16_main_v108 m ρ c, W16_main_arg2 m ρ c]
  rfl

theorem W17_main_v112 : W17 m ρ c (Proc.devRef .tc main_v112) = broadcastInDim S1x128 ![1] Cert.ReferenceIdeal.Facts₀.bcast_S128_S1x128_1 (m ((c.tc : Thread nD τ).loc main_arg6)) := by
  show StableHlo.after hostOps8 (W16 m ρ c) (Proc.devRef .tc main_v112) = _
  dsimp only [hostOps8]
  after_results_simp
  rw [W16_main_arg6 m ρ c]
  exact Cert.Glue.row_eq 128 _ _ _

theorem W17_main_v113 : W17 m ρ c (Proc.devRef .tc main_v113) = broadcastInDim S1x64 ![1] Cert.ReferenceIdeal.Facts₀.bcast_S64_S1x64_1 (m ((c.tc : Thread nD τ).loc main_arg8)) := by
  show StableHlo.after hostOps8 (W16 m ρ c) (Proc.devRef .tc main_v113) = _
  dsimp only [hostOps8]
  after_results_simp
  rw [W16_main_arg8 m ρ c]
  exact Cert.Glue.row_eq 64 _ _ _

theorem W17_main_v114 : W17 m ρ c (Proc.devRef .tc main_v114) = broadcastInDim S1x10 ![1] Cert.ReferenceIdeal.Facts₀.bcast_S10_S1x10_1 (m ((c.tc : Thread nD τ).loc main_arg10)) := by
  show StableHlo.after hostOps8 (W16 m ρ c) (Proc.devRef .tc main_v114) = _
  dsimp only [hostOps8]
  after_results_simp
  rw [W16_main_arg10 m ρ c]
  exact Cert.Glue.row_eq 10 _ _ _

theorem W17_main_arg5 : W17 m ρ c (Proc.devRef .tc main_arg5) = (m ((c.tc : Thread nD τ).loc main_arg5)) := by
  calc W17 m ρ c (Proc.devRef .tc main_arg5)
    _ = W16 m ρ c (Proc.devRef .tc main_arg5) := by keep_host
    _ = W15 m ρ c (Proc.devRef .tc main_arg5) := W16_of_ne m ρ c main_arg5 (by decide)
    _ = W14 m ρ c (Proc.devRef .tc main_arg5) := by keep_host
    _ = W13 m ρ c (Proc.devRef .tc main_arg5) := W14_of_ne m ρ c main_arg5 (by decide)
    _ = W12 m ρ c (Proc.devRef .tc main_arg5) := by keep_host
    _ = W11 m ρ c (Proc.devRef .tc main_arg5) := W12_of_ne m ρ c main_arg5 (by decide)
    _ = W10 m ρ c (Proc.devRef .tc main_arg5) := by keep_host
    _ = W9 m ρ c (Proc.devRef .tc main_arg5) := W10_of_ne m ρ c main_arg5 (by decide)
    _ = W8 m ρ c (Proc.devRef .tc main_arg5) := by keep_host
    _ = W7 m ρ c (Proc.devRef .tc main_arg5) := W8_of_ne m ρ c main_arg5 (by decide)
    _ = W6 m ρ c (Proc.devRef .tc main_arg5) := by keep_host
    _ = W5 m ρ c (Proc.devRef .tc main_arg5) := W6_of_ne m ρ c main_arg5 (by decide)
    _ = W4 m ρ c (Proc.devRef .tc main_arg5) := by keep_host
    _ = W3 m ρ c (Proc.devRef .tc main_arg5) := W4_of_ne m ρ c main_arg5 (by decide)
    _ = W2 m ρ c (Proc.devRef .tc main_arg5) := by keep_host
    _ = W1 m ρ c (Proc.devRef .tc main_arg5) := W2_of_ne m ρ c main_arg5 (by decide)
    _ = W0 m ρ c (Proc.devRef .tc main_arg5) := by keep_host
    _ = (m ((c.tc : Thread nD τ).loc main_arg5)) := rfl

theorem W17_main_arg7 : W17 m ρ c (Proc.devRef .tc main_arg7) = (m ((c.tc : Thread nD τ).loc main_arg7)) := by
  calc W17 m ρ c (Proc.devRef .tc main_arg7)
    _ = W16 m ρ c (Proc.devRef .tc main_arg7) := by keep_host
    _ = W15 m ρ c (Proc.devRef .tc main_arg7) := W16_of_ne m ρ c main_arg7 (by decide)
    _ = W14 m ρ c (Proc.devRef .tc main_arg7) := by keep_host
    _ = W13 m ρ c (Proc.devRef .tc main_arg7) := W14_of_ne m ρ c main_arg7 (by decide)
    _ = W12 m ρ c (Proc.devRef .tc main_arg7) := by keep_host
    _ = W11 m ρ c (Proc.devRef .tc main_arg7) := W12_of_ne m ρ c main_arg7 (by decide)
    _ = W10 m ρ c (Proc.devRef .tc main_arg7) := by keep_host
    _ = W9 m ρ c (Proc.devRef .tc main_arg7) := W10_of_ne m ρ c main_arg7 (by decide)
    _ = W8 m ρ c (Proc.devRef .tc main_arg7) := by keep_host
    _ = W7 m ρ c (Proc.devRef .tc main_arg7) := W8_of_ne m ρ c main_arg7 (by decide)
    _ = W6 m ρ c (Proc.devRef .tc main_arg7) := by keep_host
    _ = W5 m ρ c (Proc.devRef .tc main_arg7) := W6_of_ne m ρ c main_arg7 (by decide)
    _ = W4 m ρ c (Proc.devRef .tc main_arg7) := by keep_host
    _ = W3 m ρ c (Proc.devRef .tc main_arg7) := W4_of_ne m ρ c main_arg7 (by decide)
    _ = W2 m ρ c (Proc.devRef .tc main_arg7) := by keep_host
    _ = W1 m ρ c (Proc.devRef .tc main_arg7) := W2_of_ne m ρ c main_arg7 (by decide)
    _ = W0 m ρ c (Proc.devRef .tc main_arg7) := by keep_host
    _ = (m ((c.tc : Thread nD τ).loc main_arg7)) := rfl

theorem W17_main_arg9 : W17 m ρ c (Proc.devRef .tc main_arg9) = (m ((c.tc : Thread nD τ).loc main_arg9)) := by
  calc W17 m ρ c (Proc.devRef .tc main_arg9)
    _ = W16 m ρ c (Proc.devRef .tc main_arg9) := by keep_host
    _ = W15 m ρ c (Proc.devRef .tc main_arg9) := W16_of_ne m ρ c main_arg9 (by decide)
    _ = W14 m ρ c (Proc.devRef .tc main_arg9) := by keep_host
    _ = W13 m ρ c (Proc.devRef .tc main_arg9) := W14_of_ne m ρ c main_arg9 (by decide)
    _ = W12 m ρ c (Proc.devRef .tc main_arg9) := by keep_host
    _ = W11 m ρ c (Proc.devRef .tc main_arg9) := W12_of_ne m ρ c main_arg9 (by decide)
    _ = W10 m ρ c (Proc.devRef .tc main_arg9) := by keep_host
    _ = W9 m ρ c (Proc.devRef .tc main_arg9) := W10_of_ne m ρ c main_arg9 (by decide)
    _ = W8 m ρ c (Proc.devRef .tc main_arg9) := by keep_host
    _ = W7 m ρ c (Proc.devRef .tc main_arg9) := W8_of_ne m ρ c main_arg9 (by decide)
    _ = W6 m ρ c (Proc.devRef .tc main_arg9) := by keep_host
    _ = W5 m ρ c (Proc.devRef .tc main_arg9) := W6_of_ne m ρ c main_arg9 (by decide)
    _ = W4 m ρ c (Proc.devRef .tc main_arg9) := by keep_host
    _ = W3 m ρ c (Proc.devRef .tc main_arg9) := W4_of_ne m ρ c main_arg9 (by decide)
    _ = W2 m ρ c (Proc.devRef .tc main_arg9) := by keep_host
    _ = W1 m ρ c (Proc.devRef .tc main_arg9) := W2_of_ne m ρ c main_arg9 (by decide)
    _ = W0 m ρ c (Proc.devRef .tc main_arg9) := by keep_host
    _ = (m ((c.tc : Thread nD τ).loc main_arg9)) := rfl

/-! ## After the last region: the result -/

theorem W18_main_v115 : W18 m ρ c (Proc.devRef .tc main_v115) = val_main_v142 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W18_arr m ρ c 7).trans ?_
  rw [Cert.KernelIdeal.Mlp.arrAt8 (V17 m ρ) c]
  show mlpRef (F := Ideal) (W17 m ρ c (Proc.devRef .tc main_v111)) (W17 m ρ c (Proc.devRef .tc main_arg5)) (W17 m ρ c (Proc.devRef .tc main_v112)) (W17 m ρ c (Proc.devRef .tc main_arg7)) (W17 m ρ c (Proc.devRef .tc main_v113)) (W17 m ρ c (Proc.devRef .tc main_arg9)) (W17 m ρ c (Proc.devRef .tc main_v114)) = _
  rw [W17_main_v111 m ρ c, W17_main_arg5 m ρ c, W17_main_v112 m ρ c, W17_main_arg7 m ρ c, W17_main_v113 m ρ c, W17_main_arg9 m ρ c, W17_main_v114 m ρ c]
  rfl

end Cert.KernelIdeal.Chain

end
-- ==== Proof.lean ====
/-
  The certificate's claim, assembled. Three frames: the kernel as printed, the kernel read over the extended reals, and
  the reference each run to the end without a fault and leave their argument arrays as launched — the two kernels' by
  their generated frames, the reference's by its generated run with the result dropped. The idealization rewrote no
  operation, so what it must preserve is `True`. The algebraic conjunct: from memories that agree on the eleven
  arguments both idealized programs end with ONE array, the reference's last stage of those arguments (a four-layer
  graph convolution, the sum of node features into graphs, and a three-layer head) — the kernel's result buffer holds it
  after its ninth pipelined region (the chain of region and host-stretch values), the reference's by its own run.
-/
import proofs.«132292_j27307402068686_1_alg».proof.Defs
import proofs.«132292_j27307402068686_1_alg».proof.Proof.Gen.Kernel
import proofs.«132292_j27307402068686_1_alg».proof.Proof.Gen.Kernel.Skeleton
import proofs.«132292_j27307402068686_1_alg».proof.Proof.Gen.Kernel.Launch
import proofs.«132292_j27307402068686_1_alg».proof.Proof.Gen.Kernel.Points
import proofs.«132292_j27307402068686_1_alg».proof.Proof.Gen.Kernel.Frame
import proofs.«132292_j27307402068686_1_alg».proof.Proof.Gen.KernelIdeal
import proofs.«132292_j27307402068686_1_alg».proof.Proof.Gen.KernelIdeal.Skeleton
import proofs.«132292_j27307402068686_1_alg».proof.Proof.Gen.KernelIdeal.Launch
import proofs.«132292_j27307402068686_1_alg».proof.Proof.Gen.KernelIdeal.Points
import proofs.«132292_j27307402068686_1_alg».proof.Proof.Gen.KernelIdeal.Frame
import proofs.«132292_j27307402068686_1_alg».proof.Proof.Gen.ReferenceIdeal
import proofs.«132292_j27307402068686_1_alg».proof.Proof.Gen.Pre_finite_inputs
import proofs.«132292_j27307402068686_1_alg».proof.Proof.Gen.ReferenceIdeal.Run
import proofs.«132292_j27307402068686_1_alg».proof.Proof.Gen.ReferenceIdeal.Read
import proofs.«132292_j27307402068686_1_alg».proof.Proof.KernelRun
import proofs.«132292_j27307402068686_1_alg».proof.Proof.Chain4
import Idealize.ShloMosaic.Adequacy
import Idealize.ShloMosaic.Init

noncomputable section

namespace Cert.Proof

open Idealize.ShloMosaic Idealize.SL.Sem

/-- The kernel as printed runs and leaves its arguments as launched: the generated frame. -/
theorem frame_p : Cert.frame_Kernel := fun m ρ _ => Cert.Kernel.Gen.frame m ρ

/-- So does the kernel read over the extended reals. -/
theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the reference's last stage of the argument arrays: the kernel's
    result buffer holds it after the last region, the reference's by its run; the arguments agree by hypothesis. -/
theorem algebraic : Cert.algebraic_KernelIdeal_ReferenceIdeal := by
  intro m ρ m' ρ' _ hagree
  refine ⟨fun c => Cert.ReferenceIdeal.Read.val_main_v142 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.W18_main_v115 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v142_eq]
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
